-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S512x64 : Shape := ⟨2, ![512, 64]⟩
abbrev S64 : Shape := ⟨1, ![64]⟩
abbrev S64x512 : Shape := ⟨2, ![64, 512]⟩
abbrev S32768x1024 : Shape := ⟨2, ![32768, 1024]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S32768x1024 : S_.BroadcastsInDim S32768x1024 (![] : Fin 0 → Fin S32768x1024.rank)
  reducesTo_S32768x1024_S_d0_1 : S32768x1024.ReducesTo [0, 1] S_

variable [Facts]

def fn_part1 {F : FTy → Type} [FloatOps F] (main_arg4 : FVec F S32768x1024 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S32768x1024 .f32 := Host.absf main_arg4
  let main_cst_6 : FVec F S_ .f32 := constant S_ .f32 0x7F800000#32
  let main_v20 : FVec F S32768x1024 .f32 := broadcastInDim S32768x1024 ![] bcast_S_S32768x1024 main_cst_6
  let main_v21 : IVec S32768x1024 1 := cmpf .olt main_v19 main_v20
  let main_c_7 : IVec S_ 1 := constantI S_ 1 1#1
  let main_v22 : IVec S_ 1 := (fun x v => Host.reduce IntOp.andi x v reducesTo_S32768x1024_S_d0_1 h_S_) main_v21 main_c_7
  let main_v23 : IVec S_ 1 := andi main_v18 main_v22
  main_v23

def fn {F : FTy → Type} [FloatOps F] (main_arg0 : FVec F S32x1024x512 .f32) (main_arg1 : FVec F S512x64 .f32) (main_arg2 : FVec F S64 .f32) (main_arg3 : FVec F S64x512 .f32) (main_arg4 : FVec F S32768x1024 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_v13 main_v16
-- ==== Kernel.lean ====
abbrev S32x1024x512 : Shape := ⟨3, ![32, 1024, 512]⟩
abbrev S512x64 : Shape := ⟨2, ![512, 64]⟩
abbrev S64 : Shape := ⟨1, ![64]⟩
abbrev S64x512 : Shape := ⟨2, ![64, 512]⟩
abbrev S32768x1024 : Shape := ⟨2, ![32768, 1024]⟩
abbrev S1x64 : Shape := ⟨2, ![1, 64]⟩
abbrev S32x64x512 : Shape := ⟨3, ![32, 64, 512]⟩
abbrev S4x1024x512 : Shape := ⟨3, ![4, 1024, 512]⟩
abbrev S4x64x512 : Shape := ⟨3, ![4, 64, 512]⟩
abbrev S1x1024x512 : Shape := ⟨3, ![1, 1024, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S64x1 : Shape := ⟨2, ![64, 1]⟩
abbrev S1x64x512 : Shape := ⟨3, ![1, 64, 512]⟩
abbrev S1 : Shape := ⟨1, ![1]⟩
abbrev S1x1x1 : Shape := ⟨3, ![1, 1, 1]⟩
abbrev S1x1 : Shape := ⟨2, ![1, 1]⟩
abbrev S32x32768 : Shape := ⟨2, ![32, 32768]⟩
abbrev S32x1024 : Shape := ⟨2, ![32, 1024]⟩
abbrev S32x4096 : Shape := ⟨2, ![32, 4096]⟩
abbrev S4096x512 : Shape := ⟨2, ![4096, 512]⟩
abbrev S32x512 : Shape := ⟨2, ![32, 512]⟩

abbrev nBuf : Space → Nat
  | .hbm => 9
  | .vmem => 14
  | .smem => 0
  | _ => 0

abbrev bufTy : (tb : Table) → Fin (tcTables nBuf tb) → BufTy
  | .hbm, ⟨0, _⟩ => ⟨S32x1024x512, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S32768x1024, .f32⟩
  | .hbm, ⟨5, _⟩ => ⟨S1x64, .f32⟩
  | .hbm, ⟨6, _⟩ => ⟨S32x64x512, .f32⟩
  | .hbm, ⟨7, _⟩ => ⟨S32x32768, .f32⟩
  | .hbm, ⟨8, _⟩ => ⟨S32x1024, .f32⟩
  | .local _ .vmem, ⟨0, _⟩ => ⟨S4x1024x512, .f32⟩
  | .local _ .vmem, ⟨1, _⟩ => ⟨S4x1024x512, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S4x64x512, .f32⟩
  | .local _ .vmem, ⟨6, _⟩ => ⟨S4x64x512, .f32⟩
  | .local _ .vmem, ⟨7, _⟩ => ⟨S32x4096, .f32⟩
  | .local _ .vmem, ⟨8, _⟩ => ⟨S32x4096, .f32⟩
  | .local _ .vmem, ⟨9, _⟩ => ⟨S4096x512, .f32⟩
  | .local _ .vmem, ⟨10, _⟩ => ⟨S4096x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S64_S1x64 : S64.ShapeCasts S1x64
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x512_S64x512_0_0 : ∀ a, (![0, 0] : Fin 2 → Nat) a + S64x512.size a ≤ S64x512.size a
  h_S64x512 : 0 < S64x512.numel
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  transposes_S1024x64_p1_0_S64x1024 : S1024x64.Transposes [1, 0] S64x1024
  reduces_S1024x64_S64 : S1024x64.Reduces [0] S64
  shapeCasts_S64_S64x1 : S64.ShapeCasts S64x1
  broadcasts_S64x1_S64x512 : S64x1.Broadcasts S64x512
  reduces_S64x512_S64 : S64x512.Reduces [1] S64
  shapeCasts_S64x512_S1x64x512 : S64x512.ShapeCasts S1x64x512
  reduces_S1x64x512_S1 : S1x64x512.Reduces [1, 2] S1
  shapeCasts_S1_S1x1x1 : S1.ShapeCasts S1x1x1
  inpos_S1x1x1_p0_0_0 : ∀ a, (![0, 0, 0] : Fin 3 → Nat) a < S1x1x1.size a
  broadcasts_S1x1_S64x512 : S1x1.Broadcasts S64x512
  inb_S4x64x512_S1x64x512_0_0_0 : ∀ a, (![0, 0, 0] : Fin 3 → Nat) a + S1x64x512.size a ≤ S4x64x512.size a
  h_S1x64x512 : 0 < S1x64x512.numel
  shapeCasts_S1x64x512_S64x512 : S1x64x512.ShapeCasts S64x512
  inb_S4x1024x512_S1x1024x512_1_0_0 : ∀ a, (![1, 0, 0] : Fin 3 → Nat) a + S1x1024x512.size a ≤ S4x1024x512.size a
  inb_S4x64x512_S1x64x512_1_0_0 : ∀ a, (![1, 0, 0] : Fin 3 → Nat) a + S1x64x512.size a ≤ S4x64x512.size a
  inb_S4x1024x512_S1x1024x512_2_0_0 : ∀ a, (![2, 0, 0] : Fin 3 → Nat) a + S1x1024x512.size a ≤ S4x1024x512.size a
  inb_S4x64x512_S1x64x512_2_0_0 : ∀ a, (![2, 0, 0] : Fin 3 → Nat) a + S1x64x512.size a ≤ S4x64x512.size a
  inb_S4x1024x512_S1x1024x512_3_0_0 : ∀ a, (![3, 0, 0] : Fin 3 → Nat) a + S1x1024x512.size a ≤ S4x1024x512.size a
  inb_S4x64x512_S1x64x512_3_0_0 : ∀ a, (![3, 0, 0] : Fin 3 → Nat) a + S1x64x512.size a ≤ S4x64x512.size a
  shapeCasts_S32x64x512_S32x32768 : S32x64x512.ShapeCasts S32x32768
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S4096x512_S4096x512_0_0 : ∀ a, (![0, 0] : Fin 2 → Nat) a + S4096x512.size a ≤ S4096x512.size a
  h_S4096x512 : 0 < S4096x512.numel
  dot_S1024x512_S512x64_S1024x64_1_0_0_1_n_n_wf : DotDims.WF S1024x512 S512x64 S1024x64 [1] [0] [0] [1] [] []
  dot_S64x1024_S1024x512_S64x512_1_0_0_1_n_n_wf : DotDims.WF S64x1024 S1024x512 S64x512 [1] [0] [0] [1] [] []
  dot_S32x4096_S4096x512_S32x512_1_0_0_1_n_n_wf : DotDims.WF S32x4096 S4096x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S32x1024x512.size a
  hwx0_0 : ∀ i : grid0.Coords, EltTy.bits .f32 = 32 ∨ (Rect.block (s := S32x1024x512) S4x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x64x512.size a ≤ S32x64x512.size a
  hwx0_4 : ∀ i : grid0.Coords, EltTy.bits .f32 = 32 ∨ (Rect.block (s := S32x64x512) S4x64x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S32x32768.size a
  hwx1_0 : ∀ i : grid1.Coords, EltTy.bits .f32 = 32 ∨ (Rect.block (s := S32x32768) S32x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S32768x1024.size a
  hwx1_1 : ∀ i : grid1.Coords, EltTy.bits .f32 = 32 ∨ (Rect.block (s := S32768x1024) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x512.size a ≤ S32x1024.size a
  hwx1_2 : ∀ i : grid1.Coords, EltTy.bits .f32 = 32 ∨ (Rect.block (s := S32x1024) S32x512.size (cc1_transform_2 i) (hinb1_2 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf

abbrev win0_0 : Pipeline.Window sig grid0 :=
  Pipeline.Window.ofSpec (Memref.whole main_arg0) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S32x1024x512 : Shape := ⟨3, ![32, 1024, 512]⟩
abbrev S512x64 : Shape := ⟨2, ![512, 64]⟩
abbrev S64 : Shape := ⟨1, ![64]⟩
abbrev S64x512 : Shape := ⟨2, ![64, 512]⟩
abbrev S32768x1024 : Shape := ⟨2, ![32768, 1024]⟩
abbrev S32x1024x64 : Shape := ⟨3, ![32, 1024, 64]⟩
abbrev S1x1x64 : Shape := ⟨3, ![1, 1, 64]⟩
abbrev S_ : Shape := ⟨0, ![]⟩
abbrev S32x1024 : Shape := ⟨2, ![32, 1024]⟩
abbrev S32x1024x1 : Shape := ⟨3, ![32, 1024, 1]⟩
abbrev S32x64x512 : Shape := ⟨3, ![32, 64, 512]⟩
abbrev S32x64 : Shape := ⟨2, ![32, 64]⟩
abbrev S32x64x1 : Shape := ⟨3, ![32, 64, 1]⟩
abbrev S1x64x512 : Shape := ⟨3, ![1, 64, 512]⟩
abbrev S32x32768 : Shape := ⟨2, ![32, 32768]⟩
abbrev S32 : Shape := ⟨1, ![32]⟩
abbrev S32x1 : Shape := ⟨2, ![32, 1]⟩

abbrev nBuf : Space → Nat
  | .hbm => 54
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S32768x1024, .f32⟩
  | .hbm, ⟨5, _⟩ => ⟨S32x1024x64, .f32⟩
  | .hbm, ⟨6, _⟩ => ⟨S1x1x64, .f32⟩
  | .hbm, ⟨7, _⟩ => ⟨S32x1024x64, .f32⟩
  | .hbm, ⟨8, _⟩ => ⟨S32x1024x64, .f32⟩
  | .hbm, ⟨9, _⟩ => ⟨S_, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024x1, .f32⟩
  | .hbm, ⟨15, _⟩ => ⟨S32x1024x64, .f32⟩
  | .hbm, ⟨16, _⟩ => ⟨S32x1024x64, .f32⟩
  | .hbm, ⟨17, _⟩ => ⟨S32x1024x64, .f32⟩
  | .hbm, ⟨18, _⟩ => ⟨S_, .f32⟩
  | .hbm, ⟨19, _⟩ => ⟨S32x1024, .f32⟩
  | .hbm, ⟨20, _⟩ => ⟨S32x1024x1, .f32⟩
  | .hbm, ⟨21, _⟩ => ⟨S32x1024x64, .f32⟩
  | .hbm, ⟨22, _⟩ => ⟨S32x1024x64, .f32⟩
  | .hbm, ⟨23, _⟩ => ⟨S32x64x512, .f32⟩
  | .hbm, ⟨24, _⟩ => ⟨S_, .f32⟩
  | .hbm, ⟨25, _⟩ => ⟨S32x64, .f32⟩
  | .hbm, ⟨26, _⟩ => ⟨S32x64x1, .f32⟩
  | .hbm, ⟨27, _⟩ => ⟨S1x64x512, .f32⟩
  | .hbm, ⟨28, _⟩ => ⟨S32x64x512, .f32⟩
  | .hbm, ⟨29, _⟩ => ⟨S32x64x512, .f32⟩
  | .hbm, ⟨30, _⟩ => ⟨S32x64x512, .f32⟩
  | .hbm, ⟨31, _⟩ => ⟨S32x64x512, .f32⟩
  | .hbm, ⟨32, _⟩ => ⟨S32x64x512, .f32⟩
  | .hbm, ⟨33, _⟩ => ⟨S_, .f32⟩
  | .hbm, ⟨34, _⟩ => ⟨S32x64, .f32⟩
  | .hbm, ⟨35, _⟩ => ⟨S32x64x1, .f32⟩
  | .hbm, ⟨36, _⟩ => ⟨S_, .f32⟩
  | .hbm, ⟨37, _⟩ => ⟨S32x64x1, .f32⟩
  | .hbm, ⟨38, _⟩ => ⟨S32x64x1, .f32⟩
  | .hbm, ⟨39, _⟩ => ⟨S32x64x1, .f32⟩
  | .hbm, ⟨40, _⟩ => ⟨S32x64x512, .f32⟩
  | .hbm, ⟨41, _⟩ => ⟨S32x64x512, .f32⟩
  | .hbm, ⟨42, _⟩ => ⟨S32x32768, .f32⟩
  | .hbm, ⟨43, _⟩ => ⟨S32x32768, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1, .f32⟩
  | .hbm, ⟨51, _⟩ => ⟨S32x32768, .f32⟩
  | .hbm, ⟨52, _⟩ => ⟨S32x32768, .f32⟩
  | .hbm, ⟨53, _⟩ => ⟨S32x1024, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  reducesTo_S32x1024x64_S32x1024_d2 : S32x1024x64.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x64_0_1_2 : S32x1024x1.BroadcastsInDim S32x1024x64 (![0, 1, 2] : Fin 3 → Fin S32x1024x64.rank)
  reducesTo_S32x1024x64_S32x64_d1 : S32x1024x64.ReducesTo [1] S32x64
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  reducesTo_S32x64x512_S32x64_d2 : S32x64x512.ReducesTo [2] S32x64
  bcast_S_S32x64x1 : S_.BroadcastsInDim S32x64x1 (![] : Fin 0 → Fin S32x64x1.rank)
  shapeCasts_S32x64x512_S32x32768 : S32x64x512.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S32x1024x512_S512x64_S32x1024x64_2_0_01_1_n_n_wf : DotDims.WF S32x1024x512 S512x64 S32x1024x64 [2] [0] [0, 1] [1] [] []
  dot_S32x1024x64_S32x1024x512_S32x64x512_1_1_2_2_0_0_wf : DotDims.WF S32x1024x64 S32x1024x512 S32x64x512 [1] [1] [2] [2] [0] [0]
  dot_S32x32768_S32768x1024_S32x1024_1_0_0_1_n_n_wf : DotDims.WF S32x32768 S32768x1024 S32x1024 [1] [0] [0] [1] [] []

variable [Facts₀]

def dot_S32x1024x512_S512x64_S32x1024x64_2_0_01_1_n_n : DotDims S32x1024x512 S512x64 S32x1024x64 where
  lhsContracting := [2]
  rhsContracting := [0]
  lhsNonContracting := [0, 1]
  rhsNonContracting := [1]
  lhsBatch := []
  rhsBatch := []
  wf := dot_S32x1024x512_S512x64_S32x1024x64_2_0_01_1_n_n_wf
def dot_S32x1024x64_S32x1024x512_S32x64x512_1_1_2_2_0_0 : DotDims S32x1024x64 S32x1024x512 S32x64x512 where
  lhsContracting := [1]
  rhsContracting := [1]
  lhsNonContracting := [2]
  rhsNonContracting := [2]
  lhsBatch := [0]
  rhsBatch := [0]
  wf := dot_S32x1024x64_S32x1024x512_S32x64x512_1_1_2_2_0_0_wf
def dot_S32x32768_S32768x1024_S32x1024_1_0_0_1_n_n : DotDims S32x32768 S32768x1024 S32x1024 where
  lhsContracting := [1]
  rhsContracting := [0]
  lhsNonContracting := [0]
  rhsNonContracting := [1]
  lhsBatch := []
  rhsBatch := []
  wf := dot_S32x32768_S32768x1024_S32x1024_1_0_0_1_n_n_wf

class Facts : Prop extends Facts₀ where

variable [Facts]
-- ==== Proof.KRegion0.lean ====
/-
  The first kernel region (the per-batch soft-assignment, aggregation and the two normalizations) at any float instance: what its body leaves in the output block at a grid point, as the four batch slabs it stores, and the body's triple at every point.
-/
import proofs.«181341_j65197603553867_2_alg».proof.Proof.Gen.Kernel.Launch
import proofs.«181341_j65197603553867_2_alg».proof.Proof.Gen.Kernel.Skeleton
import proofs.«181341_j65197603553867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Slab `i` of the four batches a point handles: in the input block and in the output block. -/
abbrev ldB (i : Fin 4) : Rect S4x1024x512 := match i with
  | 0 => Rect.unit (s := S4x1024x512) ![0, 0, 0] S1x1024x512.size inb_S4x1024x512_S1x1024x512_0_0_0
  | 1 => Rect.unit (s := S4x1024x512) ![1, 0, 0] S1x1024x512.size inb_S4x1024x512_S1x1024x512_1_0_0
  | 2 => Rect.unit (s := S4x1024x512) ![2, 0, 0] S1x1024x512.size inb_S4x1024x512_S1x1024x512_2_0_0
  | 3 => Rect.unit (s := S4x1024x512) ![3, 0, 0] S1x1024x512.size inb_S4x1024x512_S1x1024x512_3_0_0
abbrev stB (i : Fin 4) : Rect S4x64x512 := match i with
  | 0 => Rect.unit (s := S4x64x512) ![0, 0, 0] S1x64x512.size inb_S4x64x512_S1x64x512_0_0_0
  | 1 => Rect.unit (s := S4x64x512) ![1, 0, 0] S1x64x512.size inb_S4x64x512_S1x64x512_1_0_0
  | 2 => Rect.unit (s := S4x64x512) ![2, 0, 0] S1x64x512.size inb_S4x64x512_S1x64x512_2_0_0
  | 3 => Rect.unit (s := S4x64x512) ![3, 0, 0] S1x64x512.size inb_S4x64x512_S1x64x512_3_0_0

/-- What the body stores for each of its four batches, from the blocks it loads (x0 the four batches of
    descriptors, x1 the assignment weights, x2 the bias row, x3 the centers). -/
def slab0 (x0 : Vec F S4x1024x512 .f32) (x1 : Vec F S512x64 .f32) (x2 : Vec F S1x64 .f32) (x3 : Vec F S64x512 .f32) : FVec F S1x64x512 .f32 :=
  k0_pay5 (k0_pay3 x1 x2 x3 (View.ld x0 (ldB 0))) (k0_pay4 x1 x2 x3 (View.ld x0 (ldB 0)))
def slab1 (x0 : Vec F S4x1024x512 .f32) (x1 : Vec F S512x64 .f32) (x2 : Vec F S1x64 .f32) (x3 : Vec F S64x512 .f32) : FVec F S1x64x512 .f32 :=
  k0_pay8 (k0_pay6 x1 (k0_pay2 x2) x3 (View.ld x0 (ldB 1))) (k0_pay7 x1 (k0_pay2 x2) x3 (View.ld x0 (ldB 1)))
def slab2 (x0 : Vec F S4x1024x512 .f32) (x1 : Vec F S512x64 .f32) (x2 : Vec F S1x64 .f32) (x3 : Vec F S64x512 .f32) : FVec F S1x64x512 .f32 :=
  k0_pay11 (k0_pay9 x1 (k0_pay2 x2) x3 (View.ld x0 (ldB 2))) (k0_pay10 x1 (k0_pay2 x2) x3 (View.ld x0 (ldB 2)))
def slab3 (x0 : Vec F S4x1024x512 .f32) (x1 : Vec F S512x64 .f32) (x2 : Vec F S1x64 .f32) (x3 : Vec F S64x512 .f32) : FVec F S1x64x512 .f32 :=
  k0_pay1 (k0_pay12 x1 (k0_pay2 x2) x3 (View.ld x0 (ldB 3))) (k0_pay13 x1 (k0_pay2 x2) x3 (View.ld x0 (ldB 3)))

/-- The output block after the body: its four slab stores read back as one array (last store first). -/
def out0_4 (x0 : Vec F S4x1024x512 .f32) (x1 : Vec F S512x64 .f32) (x2 : Vec F S1x64 .f32) (x3 : Vec F S64x512 .f32) : Vec F S4x64x512 .f32 :=
  View.canon [⟨stB 3, slab3 x0 x1 x2 x3⟩, ⟨stB 2, slab2 x0 x1 x2 x3⟩, ⟨stB 1, slab1 x0 x1 x2 x3⟩, ⟨stB 0, slab0 x0 x1 x2 x3⟩]

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-! ## What the body finds in its input buffers -/

/-- Input window 0's current staging buffer holds its block at every point, whether or not the block was
    fetched there (an unfetched point has the block index of the point before it), for any proof data whose
    array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the block was
    fetched there (an unfetched point has the block index of the point before it), for any proof data whose
    array is the region-entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the block was
    fetched there (an unfetched point has the block index of the point before it), for any proof data whose
    array is the region-entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the block was
    fetched there (an unfetched point has the block index of the point before it), for any proof data whose
    array is the region-entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The four slab stores cover the output block -/

/-- The four batch slabs tile the [4,64,512] block along its first axis, so every index lies in one of them. -/
theorem cover0_4 (p0 p1 p2 p3 : Vec F S1x64x512 .f32) (y : S4x64x512.Idx) :
    ∃ pc ∈ ([⟨stB 3, p3⟩, ⟨stB 2, p2⟩, ⟨stB 1, p1⟩, ⟨stB 0, p0⟩] : List (View.Piece (Elt F) S4x64x512 .f32)), y ∈ pc.1.set :=
  View.cover_of_tiled [⟨stB 3, p3⟩, ⟨stB 2, p2⟩, ⟨stB 1, p1⟩, ⟨stB 0, p0⟩] S1x64x512.size (by rfl) y

/-! ## The body's triple -/

/-- The offsets of a load of a whole two-axis buffer. -/
theorem zeros2_0 : (![0, 0] : Fin 2 → ℕ) = fun _ => 0 := funext fun a => by fin_cases a <;> rfl

set_option maxHeartbeats 1000000 in
/-- The body on whole staging buffers, the four inputs' reading `x0 … x3` and the output's holding anything, runs to
    its continuation with the inputs' buffers as they were and the output's reading `out0_4 x0 x1 x2 x3`. -/
theorem sound_kernel0 (c : Dev nD) (E : Set ℕ) (i : grid0.Coords)
    (arg1 : Memref sig .tc .vmem S4x1024x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S64x512 .f32) (harg4 : arg4.IsWhole)
    (arg5 : Memref sig .tc .vmem S4x64x512 .f32) (harg5 : arg5.IsWhole)
    (x0 : Vec F S4x1024x512 .f32) (x1 : Vec F S512x64 .f32) (x2 : Vec F S1x64 .f32) (x3 : Vec F S64x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__netvlad_kernel i arg1 harg1 arg2 harg2 arg3 harg3 arg4 harg4 arg5 harg5) K := by
  simp only [cc0__netvlad_kernel_eq_skeleton]; unfold cc0__netvlad_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _ _ _ _)).trans ?_
  unfold out0_4 slab0 slab1 slab2 slab3
  sl_unfold_run_names
  simp only [View.readAt_eq_ld, View.ld_unit_zero (S := S512x64) zeros2_0, View.ld_unit_zero (S := S1x64) zeros2_0,
    View.ld_unit_zero (S := S64x512) zeros2_0]

/-! ## The body obligation, at a generic point -/

/-- What the body is called with at point `t`: the invariant, the core's debt, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four input buffers hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the first pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1Defs.lean ====
/-
  The second kernel region (the projection, its contraction axis cut into eight blocks accumulated in a scratch buffer) at any float instance: the accumulator after each grid point, the region's invariant and proof data, the closed forms of the body's two conditions over the grid, and what the input windows' buffers hold.
-/
import proofs.«181341_j65197603553867_2_alg».proof.Proof.Gen.Kernel.Launch
import proofs.«181341_j65197603553867_2_alg».proof.Proof.Gen.Kernel.Skeleton
import proofs.«181341_j65197603553867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. The scratch accumulator after the body at position `n`: at the first contraction block of an
    output column block (position ≡ 0 mod 8) the product of the point's two blocks added to zero, afterwards added to
    what the point before left. -/
def acc1 (c : Dev nD) : (n : ℕ) → n < cfg1.N → Vec F S32x512 .f32
  | 0, h => k1_pay2 (iblk1 V c 0 ⟨0, h⟩) (iblk1 V c 1 ⟨0, h⟩) (k1_pay1 (F := F))
  | n + 1, h =>
    if (n + 1) % 8 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_next (c : Dev nD) (t : Fin cfg1.N) (h : ¬ t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The scratch operand: a whole scoped buffer of the kernel's own. -/
abbrev scM1 : Memref sig .tc .vmem S32x512 .f32 := Memref.whole cc1_scratch0

/-- The scoped buffers that are neither a staging buffer of this pipeline nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region invariant before position `n`: before the first point the class's (every scoped buffer that is no
    staging buffer of this pipeline at anything, the generator register at some state); afterwards the same with the
    scratch accumulator at what the point before left in it. -/
def PhiS1 (c : Dev nD) : (n : ℕ) → n ≤ cfg1.N → sProp 𝕄
  | 0, _ => Pipeline.ΦA spec1 c
  | n + 1, hn => iprop(iprop(rest1 (F := F) c ∗ owns (c : Thread nD τ) scM1 fullShare (acc1 V c n hn)) ∗ (∃ r, prngReg c r))

/-- The proof data of the second pipeline on core `c`: the output window's buffer after the body holds the
    accumulator (it is written back only at the last contraction block of a column block; elsewhere the window is idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-! ## The body's two conditions, over the grid -/

/-- The body's first condition: the contraction block is the first of its column block. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body's second condition: the contraction block is the last of its column block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last contraction block the output window is idle, -/
theorem idleAt1_2 : ∀ t : Fin cfg1.N, ¬cond1_1 (grid1.coords t) → cfg1.idle 2 (grid1.coords t) = true := by decide +kernel
/-- and its block is not written back; -/
theorem noFlush1_2 : ∀ t : Fin cfg1.N, ¬cond1_1 (grid1.coords t) → (cfg1.win 2).flush t = false := by decide +kernel
/-- at the last contraction block it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S32x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x512 .f32 := win1_2.stage (cfg1.slots t 2)
abbrev hs1_2 (t : Fin cfg1.N) : (ms1_2 t).IsWhole := hstage1_2 ((cfg1.slots t 2).cast nbuf1_2)

/-! ## The invariant, regrouped -/

/-- The class's invariant is the seven foreign scoped buffers, the scratch owned at some contents, and the generator register. -/
theorem PhiA1_eq (c : Dev nD) :
    (Pipeline.ΦA spec1 c : sProp 𝕄)
      = iprop(iprop(rest1 (F := F) c ∗ (∃ d, owns (c : Thread nD τ) scM1 fullShare d)) ∗ (∃ r, prngReg c r)) := by
  unfold Pipeline.ΦA; rw [scopedRest1_eq]; unfold rest1; simp only [scM1, owns_whole]
  refine BI.equiv_iff.mp ⟨?_, ?_⟩
  · show (_ : sProp 𝕄) ⊢ _
    iintro ⟨⟨H1, H2, H3, H4, H5, H6, H7, H8⟩, Hg⟩
    isplitr [Hg]
    · isplitr [H8]
      · isplitl [H1]; · iexact H1
        isplitl [H2]; · iexact H2
        isplitl [H3]; · iexact H3
        isplitl [H4]; · iexact H4
        isplitl [H5]; · iexact H5
        isplitl [H6]; · iexact H6
        iexact H7
      · iexact H8
    · iexact Hg
  · show (_ : sProp 𝕄) ⊢ _
    iintro ⟨⟨⟨H1, H2, H3, H4, H5, H6, H7⟩, H8⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact Hg

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1 fullShare (acc1 V c (n - 1) (by omega))) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The inputs' staging buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Region1

end Cert.Kernel.Hand

end
-- ==== Proof.KRegion1RunA.lean ====
/-
  The second region's body run at a first contraction block, at any float instance.
-/
import proofs.«181341_j65197603553867_2_alg».proof.Proof.KRegion1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a first contraction block (the first condition holds, the second fails): from the two input blocks `x0`, `x1`, the output
    block's buffer at any contents `xi2` and the scratch at anything, it runs to the continuation holding the inputs and the output buffer as
    they were and the scratch with the pieces `LS0` written — the zero block, then the product added to what reads back. -/
noncomputable def kernelRun1_A (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : cond1_0 i) (hc1 : ¬cond1_1 i)
    (x0 : Vec F S32x4096 .f32) (x1 : Vec F S4096x512 .f32) :
    Σ' (L2 : List (View.Piece (Elt F) S32x512 .f32)), { LS0 : List (View.Piece (Elt F) S32x512 .f32) //
      ∀ (xi2 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRegion1RunB.lean ====
/-
  The second region's body run at a middle contraction block, at any float instance.
-/
import proofs.«181341_j65197603553867_2_alg».proof.Proof.KRegion1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle contraction block (both conditions fail): the scratch comes in at `xs0`, what the point before left, and goes out
    with the product added to it; the output block's buffer is handed back untouched. -/
noncomputable def kernelRun1_B (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : ¬cond1_1 i)
    (x0 : Vec F S32x4096 .f32) (x1 : Vec F S4096x512 .f32) (xs0 : Vec F S32x512 .f32) :
    Σ' (L2 : List (View.Piece (Elt F) S32x512 .f32)), { LS0 : List (View.Piece (Elt F) S32x512 .f32) //
      ∀ (xi2 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRegion1RunC.lean ====
/-
  The second region's body run at a last contraction block, at any float instance.
-/
import proofs.«181341_j65197603553867_2_alg».proof.Proof.KRegion1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a last contraction block (the first condition fails, the second holds): the scratch comes in at `xs0`, goes out with the
    product added to it, and the output block's buffer, which comes in at anything, is stored what the scratch then reads (`L2`). -/
noncomputable def kernelRun1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32) :
    Σ' (L2 : List (View.Piece (Elt F) S32x512 .f32)), { LS0 : List (View.Piece (Elt F) S32x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KRegion1Pieces.lean ====
/-
  What the second region's body leaves in the scratch accumulator and in the output block's buffer, case by case: the stores' pieces cover the buffer (each is a store of the whole block), and read back they are the explicit products — at a first contraction block the product added to the zero block, afterwards the product added to what the scratch held.
-/
import proofs.«181341_j65197603553867_2_alg».proof.Proof.KRegion1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-block rectangle. -/
theorem zeroOff1 : (![0, 0] : Fin 2 → Nat) = fun _ => 0 := funext fun a => by match a with | ⟨0, _⟩ => rfl | ⟨1, _⟩ => rfl

/-! ## A first contraction block -/

theorem scover1_A (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : cond1_0 i) (hc1 : ¬cond1_1 i)
    (x0 : Vec F S32x4096 .f32) (x1 : Vec F S4096x512 .f32) (y : S32x512.Idx) :
    ∃ pc ∈ (kernelRun1_A c i arg2 harg2 arg3 harg3 arg4 harg4 arg5 harg5 hc0 hc1 x0 x1).2.1, y ∈ pc.1.set := by
  unfold kernelRun1_A; dsimp only
  exact ⟨_, List.mem_cons_self, View.mem_set_unit_zero zeroOff1 inb_S32x512_S32x512_0_0 y⟩

/-- The scratch is zeroed, read back, and stored the product added to that zero block. -/
theorem sread1_A (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : cond1_0 i) (hc1 : ¬cond1_1 i)
    (x0 : Vec F S32x4096 .f32) (x1 : Vec F S4096x512 .f32)
    {sig' : RefSig} {κ' : Kind} {sp' : Space} (v : View sig' κ' sp' S32x512 .f32) (f : v.ty.Contents (Elt F)) :
    v.read (Elt F) (v.writes (Elt F) f (kernelRun1_A c i arg2 harg2 arg3 harg3 arg4 harg4 arg5 harg5 hc0 hc1 x0 x1).2.1) = k1_pay2 x0 x1 (k1_pay1 (F := F)) := by
  rw [View.read_writes_eq_canon _ _ _ (scover1_A c i arg2 harg2 arg3 harg3 arg4 harg4 arg5 harg5 hc0 hc1 x0 x1)]
  unfold kernelRun1_A; dsimp only
  sl_unfold_run_names
  rw [View.canon_cons_unit_zero zeroOff1]
  rw [View.readCov_unit_zero _ zeroOff1]
  simp only [View.readAt_eq_ld, harg2.read_unread, harg3.read_unread, View.ld_unit_zero (S := S32x4096) zeroOff1, View.ld_unit_zero (S := S4096x512) zeroOff1]

/-! ## A middle contraction block -/

theorem scover1_B (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : ¬cond1_1 i)
    (x0 : Vec F S32x4096 .f32) (x1 : Vec F S4096x512 .f32) (xs0 : Vec F S32x512 .f32) (y : S32x512.Idx) :
    ∃ pc ∈ (kernelRun1_B c i arg2 harg2 arg3 harg3 arg4 harg4 arg5 harg5 hc0 hc1 x0 x1 xs0).2.1, y ∈ pc.1.set := by
  unfold kernelRun1_B; dsimp only
  exact ⟨_, List.mem_cons_self, View.mem_set_unit_zero zeroOff1 inb_S32x512_S32x512_0_0 y⟩

/-- The scratch is stored the product added to what it held. -/
theorem sread1_B (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : ¬cond1_1 i)
    (x0 : Vec F S32x4096 .f32) (x1 : Vec F S4096x512 .f32) (xs0 : Vec F S32x512 .f32)
    {sig' : RefSig} {κ' : Kind} {sp' : Space} (v : View sig' κ' sp' S32x512 .f32) (f : v.ty.Contents (Elt F)) :
    v.read (Elt F) (v.writes (Elt F) f (kernelRun1_B c i arg2 harg2 arg3 harg3 arg4 harg4 arg5 harg5 hc0 hc1 x0 x1 xs0).2.1) = k1_pay2 x0 x1 xs0 := by
  rw [View.read_writes_eq_canon _ _ _ (scover1_B c i arg2 harg2 arg3 harg3 arg4 harg4 arg5 harg5 hc0 hc1 x0 x1 xs0)]
  unfold kernelRun1_B; dsimp only
  sl_unfold_run_names
  rw [View.canon_cons_unit_zero zeroOff1]
  simp only [View.readAt_eq_ld, harg2.read_unread, harg3.read_unread, harg5.read_unread, View.ld_unit_zero (S := S32x4096) zeroOff1, View.ld_unit_zero (S := S4096x512) zeroOff1, View.ld_unit_zero (S := S32x512) zeroOff1]

/-! ## A last contraction block -/

theorem scover1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32) (y : S32x512.Idx) :
    ∃ pc ∈ (kernelRun1_C c i arg2 harg2 arg3 harg3 arg4 harg4 arg5 harg5 hc0 hc1 x0 x1 xs0).2.1, y ∈ pc.1.set := by
  unfold kernelRun1_C; dsimp only
  exact ⟨_, List.mem_cons_self, View.mem_set_unit_zero zeroOff1 inb_S32x512_S32x512_0_0 y⟩

theorem sread1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32)
    {sig' : RefSig} {κ' : Kind} {sp' : Space} (v : View sig' κ' sp' S32x512 .f32) (f : v.ty.Contents (Elt F)) :
    v.read (Elt F) (v.writes (Elt F) f (kernelRun1_C c i arg2 harg2 arg3 harg3 arg4 harg4 arg5 harg5 hc0 hc1 x0 x1 xs0).2.1) = k1_pay2 x0 x1 xs0 := by
  rw [View.read_writes_eq_canon _ _ _ (scover1_C c i arg2 harg2 arg3 harg3 arg4 harg4 arg5 harg5 hc0 hc1 x0 x1 xs0)]
  unfold kernelRun1_C; dsimp only
  sl_unfold_run_names
  rw [View.canon_cons_unit_zero zeroOff1]
  simp only [View.readAt_eq_ld, harg2.read_unread, harg3.read_unread, harg5.read_unread, View.ld_unit_zero (S := S32x4096) zeroOff1, View.ld_unit_zero (S := S4096x512) zeroOff1, View.ld_unit_zero (S := S32x512) zeroOff1]

theorem ocover1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32) (y : S32x512.Idx) :
    ∃ pc ∈ (kernelRun1_C c i arg2 harg2 arg3 harg3 arg4 harg4 arg5 harg5 hc0 hc1 x0 x1 xs0).1, y ∈ pc.1.set := by
  unfold kernelRun1_C; dsimp only
  exact ⟨_, List.mem_cons_self, View.mem_set_unit_zero zeroOff1 inb_S32x512_S32x512_0_0 y⟩

/-- The output block's buffer is stored what the scratch reads after its own store. -/
theorem oread1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32)
    {sig' : RefSig} {κ' : Kind} {sp' : Space} (v : View sig' κ' sp' S32x512 .f32) (f : v.ty.Contents (Elt F)) :
    v.read (Elt F) (v.writes (Elt F) f (kernelRun1_C c i arg2 harg2 arg3 harg3 arg4 harg4 arg5 harg5 hc0 hc1 x0 x1 xs0).1) = k1_pay2 x0 x1 xs0 := by
  rw [View.read_writes_eq_canon _ _ _ (ocover1_C c i arg2 harg2 arg3 harg3 arg4 harg4 arg5 harg5 hc0 hc1 x0 x1 xs0)]
  unfold kernelRun1_C; dsimp only
  sl_unfold_run_names
  rw [View.canon_cons_unit_zero zeroOff1]
  rw [View.readCov_unit_zero _ zeroOff1]
  simp only [View.readAt_eq_ld, harg2.read_unread, harg3.read_unread, harg5.read_unread, View.ld_unit_zero (S := S32x4096) zeroOff1, View.ld_unit_zero (S := S4096x512) zeroOff1, View.ld_unit_zero (S := S32x512) zeroOff1]

end Cert.Kernel.Hand

end
-- ==== Proof.KRegion1.lean ====
/-
  The second kernel region (the projection, its contraction axis cut into eight blocks accumulated in a scratch buffer) at any float instance: the body's triple at every grid point from the three cases' runs, the library's body obligation, and the invariant at the region's two ends.
-/
import proofs.«181341_j65197603553867_2_alg».proof.Proof.KRegion1Pieces
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position of the contraction block in its column block says which
    of the three cases runs. At a first block the scratch comes in at anything (from the class's invariant at the first point of all,
    else by forgetting what the column block before left) and goes out at the product added to zero; at a later block it comes in at
    the accumulator of the point before and goes out with the product added. Off the last block the output window is idle and its
    buffer is handed back as found; at the last block it is stored the accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t h0]
    by_cases hz : t.val = 0
    · rw [PhiS1_castSucc V c t, PhiS1_zero V c _ _ hz, PhiA1_eq]
      iintro ⟨⟨⟨Hr, HS0⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr HS0 Hg]
      · isplitr [Hg]
        · isplitl [Hr]; · iexact Hr
          unfold owns; iexists _; isplitr
          swap; · iexact HS0
          ipureintro; exact sread1_A c (grid1.coords t) (ms1_0 t) (hs1_0 t) (ms1_1 t) (hs1_1 t) (ms1_2 t) (hs1_2 t) scM1 (Memref.isWhole_whole _) hc0 hc1 (iblk1 V c 0 t) (iblk1 V c 1 t) _ _
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hr HS0 Hg]
      · isplitr [Hg]
        · isplitl [Hr]; · iexact Hr
          unfold owns; iexists _; isplitr
          swap; · iexact HS0
          ipureintro; exact sread1_A c (grid1.coords t) (ms1_0 t) (hs1_0 t) (ms1_1 t) (hs1_1 t) (ms1_2 t) (hs1_2 t) scM1 (Memref.isWhole_whole _) hc0 hc1 (iblk1 V c 0 t) (iblk1 V c 1 t) _ _
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
          unfold Dat.leavesExact; rw [liveAt1_2 t hc1], after1_2]
      rw [acc1_next V c t h0]
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hr HS0 Hg]
      · isplitr [Hg]
        · isplitl [Hr]; · iexact Hr
          unfold owns; iexists _; isplitr
          swap; · iexact HS0
          ipureintro; exact sread1_C c (grid1.coords t) (ms1_0 t) (hs1_0 t) (ms1_1 t) (hs1_1 t) (ms1_2 t) (hs1_2 t) scM1 (Memref.isWhole_whole _) hc0 hc1 (iblk1 V c 0 t) (iblk1 V c 1 t) _ _ _
        iexact Hg
      isplitl [Ho]; · iexact Ho
      isplitl [H0]; · iexact H0
      isplitl [H1]; · iexact H1
      unfold owns; iexists _; isplitr
      swap; · iexact H2
      ipureintro; exact oread1_C c (grid1.coords t) (ms1_0 t) (hs1_0 t) (ms1_1 t) (hs1_1 t) (ms1_2 t) (hs1_2 t) scM1 (Memref.isWhole_whole _) hc0 hc1 (iblk1 V c 0 t) (iblk1 V c 1 t) _ _ _
    · have hc1 : ¬cond1_1 (grid1.coords t) := fun h => h1 ((hcond1_1 t).mp h)
      rw [Dat.leavesExact_idle (dat1 V c) 2 t (idleAt1_2 t hc1) (noFlush1_2 t hc1)]
      rw [acc1_next V c t h0]
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) hc0 hc1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr HS0 Hg]
      · isplitr [Hg]
        · isplitl [Hr]; · iexact Hr
          unfold owns; iexists _; isplitr
          swap; · iexact HS0
          ipureintro; exact sread1_B c (grid1.coords t) (ms1_0 t) (hs1_0 t) (ms1_1 t) (hs1_1 t) (ms1_2 t) (hs1_2 t) scM1 (Memref.isWhole_whole _) hc0 hc1 (iblk1 V c 0 t) (iblk1 V c 1 t) _ _ _
        iexact Hg
      isplitl [Ho]; · iexact Ho
      isplitl [H0]; · iexact H0
      isplitl [H1]; · iexact H1
      iexists _; iexact H2

/-- The library's body obligation for the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr, HS0⟩, Hg⟩
  isplitl [Hr HS0]
  · isplitl [Hr]; · iexact Hr
    iexists _; iexact HS0
  iexact Hg

/-- After the last point the invariant gives the class's back: the accumulator's named contents are forgotten. -/
theorem hout1 (c : Dev nD) : (dat1 V c).Φ (Fin.last cfg1.N) ⊢ Pipeline.ΦA spec1 c :=
  Phi_out1 V c _ (by rw [Fin.val_last]; have : cfg1.N = 16 := N_1; omega)

end Region1

end Cert.Kernel.Hand

end
-- ==== Proof.KRun.lean ====
/-
  The run of the whole program at any float instance: its four items — a reshape of the bias, the first kernel region, a reshape of its output, the second kernel region — as segments between thread states that hold every unscoped buffer at named contents; every weakly fair execution terminates, and at the end every unscoped buffer holds what the last state names: the arguments as launched, the result at what the second region's write-backs leave.
-/
import proofs.«181341_j65197603553867_2_alg».proof.Proof.KRegion0
import proofs.«181341_j65197603553867_2_alg».proof.Proof.KRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the bias is reshaped to a row (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first region's output is flattened (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg4) := rfl

/-- The result buffer ends at what the second region's write-backs leave in its output window's array. -/
theorem W4_main_v3 (c : Dev nD) : W4 m ρ c (Proc.devRef .tc main_v3) = (dat1 (V3 m ρ) c).arrAt 2 cfg1.N :=
  W4_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.Kernel.Hand

end
-- ==== Proof.KIRegion0.lean ====
/-
  The first kernel region (the per-batch soft-assignment, aggregation and the two normalizations) at any float instance: what its body leaves in the output block at a grid point, as the four batch slabs it stores, and the body's triple at every point.
-/
import proofs.«181341_j65197603553867_2_alg».proof.Proof.Gen.KernelIdeal.Launch
import proofs.«181341_j65197603553867_2_alg».proof.Proof.Gen.KernelIdeal.Skeleton
import proofs.«181341_j65197603553867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Slab `i` of the four batches a point handles: in the input block and in the output block. -/
abbrev ldB (i : Fin 4) : Rect S4x1024x512 := match i with
  | 0 => Rect.unit (s := S4x1024x512) ![0, 0, 0] S1x1024x512.size inb_S4x1024x512_S1x1024x512_0_0_0
  | 1 => Rect.unit (s := S4x1024x512) ![1, 0, 0] S1x1024x512.size inb_S4x1024x512_S1x1024x512_1_0_0
  | 2 => Rect.unit (s := S4x1024x512) ![2, 0, 0] S1x1024x512.size inb_S4x1024x512_S1x1024x512_2_0_0
  | 3 => Rect.unit (s := S4x1024x512) ![3, 0, 0] S1x1024x512.size inb_S4x1024x512_S1x1024x512_3_0_0
abbrev stB (i : Fin 4) : Rect S4x64x512 := match i with
  | 0 => Rect.unit (s := S4x64x512) ![0, 0, 0] S1x64x512.size inb_S4x64x512_S1x64x512_0_0_0
  | 1 => Rect.unit (s := S4x64x512) ![1, 0, 0] S1x64x512.size inb_S4x64x512_S1x64x512_1_0_0
  | 2 => Rect.unit (s := S4x64x512) ![2, 0, 0] S1x64x512.size inb_S4x64x512_S1x64x512_2_0_0
  | 3 => Rect.unit (s := S4x64x512) ![3, 0, 0] S1x64x512.size inb_S4x64x512_S1x64x512_3_0_0

/-- What the body stores for each of its four batches, from the blocks it loads (x0 the four batches of
    descriptors, x1 the assignment weights, x2 the bias row, x3 the centers). -/
def slab0 (x0 : Vec F S4x1024x512 .f32) (x1 : Vec F S512x64 .f32) (x2 : Vec F S1x64 .f32) (x3 : Vec F S64x512 .f32) : FVec F S1x64x512 .f32 :=
  k0_pay5 (k0_pay3 x1 x2 x3 (View.ld x0 (ldB 0))) (k0_pay4 x1 x2 x3 (View.ld x0 (ldB 0)))
def slab1 (x0 : Vec F S4x1024x512 .f32) (x1 : Vec F S512x64 .f32) (x2 : Vec F S1x64 .f32) (x3 : Vec F S64x512 .f32) : FVec F S1x64x512 .f32 :=
  k0_pay8 (k0_pay6 x1 (k0_pay2 x2) x3 (View.ld x0 (ldB 1))) (k0_pay7 x1 (k0_pay2 x2) x3 (View.ld x0 (ldB 1)))
def slab2 (x0 : Vec F S4x1024x512 .f32) (x1 : Vec F S512x64 .f32) (x2 : Vec F S1x64 .f32) (x3 : Vec F S64x512 .f32) : FVec F S1x64x512 .f32 :=
  k0_pay11 (k0_pay9 x1 (k0_pay2 x2) x3 (View.ld x0 (ldB 2))) (k0_pay10 x1 (k0_pay2 x2) x3 (View.ld x0 (ldB 2)))
def slab3 (x0 : Vec F S4x1024x512 .f32) (x1 : Vec F S512x64 .f32) (x2 : Vec F S1x64 .f32) (x3 : Vec F S64x512 .f32) : FVec F S1x64x512 .f32 :=
  k0_pay1 (k0_pay12 x1 (k0_pay2 x2) x3 (View.ld x0 (ldB 3))) (k0_pay13 x1 (k0_pay2 x2) x3 (View.ld x0 (ldB 3)))

/-- The output block after the body: its four slab stores read back as one array (last store first). -/
def out0_4 (x0 : Vec F S4x1024x512 .f32) (x1 : Vec F S512x64 .f32) (x2 : Vec F S1x64 .f32) (x3 : Vec F S64x512 .f32) : Vec F S4x64x512 .f32 :=
  View.canon [⟨stB 3, slab3 x0 x1 x2 x3⟩, ⟨stB 2, slab2 x0 x1 x2 x3⟩, ⟨stB 1, slab1 x0 x1 x2 x3⟩, ⟨stB 0, slab0 x0 x1 x2 x3⟩]

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-! ## What the body finds in its input buffers -/

/-- Input window 0's current staging buffer holds its block at every point, whether or not the block was
    fetched there (an unfetched point has the block index of the point before it), for any proof data whose
    array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the block was
    fetched there (an unfetched point has the block index of the point before it), for any proof data whose
    array is the region-entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the block was
    fetched there (an unfetched point has the block index of the point before it), for any proof data whose
    array is the region-entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the block was
    fetched there (an unfetched point has the block index of the point before it), for any proof data whose
    array is the region-entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The four slab stores cover the output block -/

/-- The four batch slabs tile the [4,64,512] block along its first axis, so every index lies in one of them. -/
theorem cover0_4 (p0 p1 p2 p3 : Vec F S1x64x512 .f32) (y : S4x64x512.Idx) :
    ∃ pc ∈ ([⟨stB 3, p3⟩, ⟨stB 2, p2⟩, ⟨stB 1, p1⟩, ⟨stB 0, p0⟩] : List (View.Piece (Elt F) S4x64x512 .f32)), y ∈ pc.1.set :=
  View.cover_of_tiled [⟨stB 3, p3⟩, ⟨stB 2, p2⟩, ⟨stB 1, p1⟩, ⟨stB 0, p0⟩] S1x64x512.size (by rfl) y

/-! ## The body's triple -/

/-- The offsets of a load of a whole two-axis buffer. -/
theorem zeros2_0 : (![0, 0] : Fin 2 → ℕ) = fun _ => 0 := funext fun a => by fin_cases a <;> rfl

set_option maxHeartbeats 1000000 in
/-- The body on whole staging buffers, the four inputs' reading `x0 … x3` and the output's holding anything, runs to
    its continuation with the inputs' buffers as they were and the output's reading `out0_4 x0 x1 x2 x3`. -/
theorem sound_kernel0 (c : Dev nD) (E : Set ℕ) (i : grid0.Coords)
    (arg1 : Memref sig .tc .vmem S4x1024x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S64x512 .f32) (harg4 : arg4.IsWhole)
    (arg5 : Memref sig .tc .vmem S4x64x512 .f32) (harg5 : arg5.IsWhole)
    (x0 : Vec F S4x1024x512 .f32) (x1 : Vec F S512x64 .f32) (x2 : Vec F S1x64 .f32) (x3 : Vec F S64x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__netvlad_kernel i arg1 harg1 arg2 harg2 arg3 harg3 arg4 harg4 arg5 harg5) K := by
  simp only [cc0__netvlad_kernel_eq_skeleton]; unfold cc0__netvlad_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _ _ _ _)).trans ?_
  unfold out0_4 slab0 slab1 slab2 slab3
  sl_unfold_run_names
  simp only [View.readAt_eq_ld, View.ld_unit_zero (S := S512x64) zeros2_0, View.ld_unit_zero (S := S1x64) zeros2_0,
    View.ld_unit_zero (S := S64x512) zeros2_0]

/-! ## The body obligation, at a generic point -/

/-- What the body is called with at point `t`: the invariant, the core's debt, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four input buffers hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the first pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1Defs.lean ====
/-
  The second kernel region (the projection, its contraction axis cut into eight blocks accumulated in a scratch buffer) at any float instance: the accumulator after each grid point, the region's invariant and proof data, the closed forms of the body's two conditions over the grid, and what the input windows' buffers hold.
-/
import proofs.«181341_j65197603553867_2_alg».proof.Proof.Gen.KernelIdeal.Launch
import proofs.«181341_j65197603553867_2_alg».proof.Proof.Gen.KernelIdeal.Skeleton
import proofs.«181341_j65197603553867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. The scratch accumulator after the body at position `n`: at the first contraction block of an
    output column block (position ≡ 0 mod 8) the product of the point's two blocks added to zero, afterwards added to
    what the point before left. -/
def acc1 (c : Dev nD) : (n : ℕ) → n < cfg1.N → Vec F S32x512 .f32
  | 0, h => k1_pay2 (iblk1 V c 0 ⟨0, h⟩) (iblk1 V c 1 ⟨0, h⟩) (k1_pay1 (F := F))
  | n + 1, h =>
    if (n + 1) % 8 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_next (c : Dev nD) (t : Fin cfg1.N) (h : ¬ t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The scratch operand: a whole scoped buffer of the kernel's own. -/
abbrev scM1 : Memref sig .tc .vmem S32x512 .f32 := Memref.whole cc1_scratch0

/-- The scoped buffers that are neither a staging buffer of this pipeline nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region invariant before position `n`: before the first point the class's (every scoped buffer that is no
    staging buffer of this pipeline at anything, the generator register at some state); afterwards the same with the
    scratch accumulator at what the point before left in it. -/
def PhiS1 (c : Dev nD) : (n : ℕ) → n ≤ cfg1.N → sProp 𝕄
  | 0, _ => Pipeline.ΦA spec1 c
  | n + 1, hn => iprop(iprop(rest1 (F := F) c ∗ owns (c : Thread nD τ) scM1 fullShare (acc1 V c n hn)) ∗ (∃ r, prngReg c r))

/-- The proof data of the second pipeline on core `c`: the output window's buffer after the body holds the
    accumulator (it is written back only at the last contraction block of a column block; elsewhere the window is idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-! ## The body's two conditions, over the grid -/

/-- The body's first condition: the contraction block is the first of its column block. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body's second condition: the contraction block is the last of its column block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last contraction block the output window is idle, -/
theorem idleAt1_2 : ∀ t : Fin cfg1.N, ¬cond1_1 (grid1.coords t) → cfg1.idle 2 (grid1.coords t) = true := by decide +kernel
/-- and its block is not written back; -/
theorem noFlush1_2 : ∀ t : Fin cfg1.N, ¬cond1_1 (grid1.coords t) → (cfg1.win 2).flush t = false := by decide +kernel
/-- at the last contraction block it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S32x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x512 .f32 := win1_2.stage (cfg1.slots t 2)
abbrev hs1_2 (t : Fin cfg1.N) : (ms1_2 t).IsWhole := hstage1_2 ((cfg1.slots t 2).cast nbuf1_2)

/-! ## The invariant, regrouped -/

/-- The class's invariant is the seven foreign scoped buffers, the scratch owned at some contents, and the generator register. -/
theorem PhiA1_eq (c : Dev nD) :
    (Pipeline.ΦA spec1 c : sProp 𝕄)
      = iprop(iprop(rest1 (F := F) c ∗ (∃ d, owns (c : Thread nD τ) scM1 fullShare d)) ∗ (∃ r, prngReg c r)) := by
  unfold Pipeline.ΦA; rw [scopedRest1_eq]; unfold rest1; simp only [scM1, owns_whole]
  refine BI.equiv_iff.mp ⟨?_, ?_⟩
  · show (_ : sProp 𝕄) ⊢ _
    iintro ⟨⟨H1, H2, H3, H4, H5, H6, H7, H8⟩, Hg⟩
    isplitr [Hg]
    · isplitr [H8]
      · isplitl [H1]; · iexact H1
        isplitl [H2]; · iexact H2
        isplitl [H3]; · iexact H3
        isplitl [H4]; · iexact H4
        isplitl [H5]; · iexact H5
        isplitl [H6]; · iexact H6
        iexact H7
      · iexact H8
    · iexact Hg
  · show (_ : sProp 𝕄) ⊢ _
    iintro ⟨⟨⟨H1, H2, H3, H4, H5, H6, H7⟩, H8⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact Hg

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1 fullShare (acc1 V c (n - 1) (by omega))) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The inputs' staging buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Region1

end Cert.KernelIdeal.Hand

end
-- ==== Proof.KIRegion1RunA.lean ====
/-
  The second region's body run at a first contraction block, at any float instance.
-/
import proofs.«181341_j65197603553867_2_alg».proof.Proof.KIRegion1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a first contraction block (the first condition holds, the second fails): from the two input blocks `x0`, `x1`, the output
    block's buffer at any contents `xi2` and the scratch at anything, it runs to the continuation holding the inputs and the output buffer as
    they were and the scratch with the pieces `LS0` written — the zero block, then the product added to what reads back. -/
noncomputable def kernelRun1_A (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : cond1_0 i) (hc1 : ¬cond1_1 i)
    (x0 : Vec F S32x4096 .f32) (x1 : Vec F S4096x512 .f32) :
    Σ' (L2 : List (View.Piece (Elt F) S32x512 .f32)), { LS0 : List (View.Piece (Elt F) S32x512 .f32) //
      ∀ (xi2 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIRegion1RunB.lean ====
/-
  The second region's body run at a middle contraction block, at any float instance.
-/
import proofs.«181341_j65197603553867_2_alg».proof.Proof.KIRegion1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle contraction block (both conditions fail): the scratch comes in at `xs0`, what the point before left, and goes out
    with the product added to it; the output block's buffer is handed back untouched. -/
noncomputable def kernelRun1_B (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : ¬cond1_1 i)
    (x0 : Vec F S32x4096 .f32) (x1 : Vec F S4096x512 .f32) (xs0 : Vec F S32x512 .f32) :
    Σ' (L2 : List (View.Piece (Elt F) S32x512 .f32)), { LS0 : List (View.Piece (Elt F) S32x512 .f32) //
      ∀ (xi2 : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIRegion1RunC.lean ====
/-
  The second region's body run at a last contraction block, at any float instance.
-/
import proofs.«181341_j65197603553867_2_alg».proof.Proof.KIRegion1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a last contraction block (the first condition fails, the second holds): the scratch comes in at `xs0`, goes out with the
    product added to it, and the output block's buffer, which comes in at anything, is stored what the scratch then reads (`L2`). -/
noncomputable def kernelRun1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32) :
    Σ' (L2 : List (View.Piece (Elt F) S32x512 .f32)), { LS0 : List (View.Piece (Elt F) S32x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KIRegion1Pieces.lean ====
/-
  What the second region's body leaves in the scratch accumulator and in the output block's buffer, case by case: the stores' pieces cover the buffer (each is a store of the whole block), and read back they are the explicit products — at a first contraction block the product added to the zero block, afterwards the product added to what the scratch held.
-/
import proofs.«181341_j65197603553867_2_alg».proof.Proof.KIRegion1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block rectangle. -/
theorem zeroOff1 : (![0, 0] : Fin 2 → Nat) = fun _ => 0 := funext fun a => by match a with | ⟨0, _⟩ => rfl | ⟨1, _⟩ => rfl

/-! ## A first contraction block -/

theorem scover1_A (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : cond1_0 i) (hc1 : ¬cond1_1 i)
    (x0 : Vec F S32x4096 .f32) (x1 : Vec F S4096x512 .f32) (y : S32x512.Idx) :
    ∃ pc ∈ (kernelRun1_A c i arg2 harg2 arg3 harg3 arg4 harg4 arg5 harg5 hc0 hc1 x0 x1).2.1, y ∈ pc.1.set := by
  unfold kernelRun1_A; dsimp only
  exact ⟨_, List.mem_cons_self, View.mem_set_unit_zero zeroOff1 inb_S32x512_S32x512_0_0 y⟩

/-- The scratch is zeroed, read back, and stored the product added to that zero block. -/
theorem sread1_A (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : cond1_0 i) (hc1 : ¬cond1_1 i)
    (x0 : Vec F S32x4096 .f32) (x1 : Vec F S4096x512 .f32)
    {sig' : RefSig} {κ' : Kind} {sp' : Space} (v : View sig' κ' sp' S32x512 .f32) (f : v.ty.Contents (Elt F)) :
    v.read (Elt F) (v.writes (Elt F) f (kernelRun1_A c i arg2 harg2 arg3 harg3 arg4 harg4 arg5 harg5 hc0 hc1 x0 x1).2.1) = k1_pay2 x0 x1 (k1_pay1 (F := F)) := by
  rw [View.read_writes_eq_canon _ _ _ (scover1_A c i arg2 harg2 arg3 harg3 arg4 harg4 arg5 harg5 hc0 hc1 x0 x1)]
  unfold kernelRun1_A; dsimp only
  sl_unfold_run_names
  rw [View.canon_cons_unit_zero zeroOff1]
  rw [View.readCov_unit_zero _ zeroOff1]
  simp only [View.readAt_eq_ld, harg2.read_unread, harg3.read_unread, View.ld_unit_zero (S := S32x4096) zeroOff1, View.ld_unit_zero (S := S4096x512) zeroOff1]

/-! ## A middle contraction block -/

theorem scover1_B (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : ¬cond1_1 i)
    (x0 : Vec F S32x4096 .f32) (x1 : Vec F S4096x512 .f32) (xs0 : Vec F S32x512 .f32) (y : S32x512.Idx) :
    ∃ pc ∈ (kernelRun1_B c i arg2 harg2 arg3 harg3 arg4 harg4 arg5 harg5 hc0 hc1 x0 x1 xs0).2.1, y ∈ pc.1.set := by
  unfold kernelRun1_B; dsimp only
  exact ⟨_, List.mem_cons_self, View.mem_set_unit_zero zeroOff1 inb_S32x512_S32x512_0_0 y⟩

/-- The scratch is stored the product added to what it held. -/
theorem sread1_B (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : ¬cond1_1 i)
    (x0 : Vec F S32x4096 .f32) (x1 : Vec F S4096x512 .f32) (xs0 : Vec F S32x512 .f32)
    {sig' : RefSig} {κ' : Kind} {sp' : Space} (v : View sig' κ' sp' S32x512 .f32) (f : v.ty.Contents (Elt F)) :
    v.read (Elt F) (v.writes (Elt F) f (kernelRun1_B c i arg2 harg2 arg3 harg3 arg4 harg4 arg5 harg5 hc0 hc1 x0 x1 xs0).2.1) = k1_pay2 x0 x1 xs0 := by
  rw [View.read_writes_eq_canon _ _ _ (scover1_B c i arg2 harg2 arg3 harg3 arg4 harg4 arg5 harg5 hc0 hc1 x0 x1 xs0)]
  unfold kernelRun1_B; dsimp only
  sl_unfold_run_names
  rw [View.canon_cons_unit_zero zeroOff1]
  simp only [View.readAt_eq_ld, harg2.read_unread, harg3.read_unread, harg5.read_unread, View.ld_unit_zero (S := S32x4096) zeroOff1, View.ld_unit_zero (S := S4096x512) zeroOff1, View.ld_unit_zero (S := S32x512) zeroOff1]

/-! ## A last contraction block -/

theorem scover1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32) (y : S32x512.Idx) :
    ∃ pc ∈ (kernelRun1_C c i arg2 harg2 arg3 harg3 arg4 harg4 arg5 harg5 hc0 hc1 x0 x1 xs0).2.1, y ∈ pc.1.set := by
  unfold kernelRun1_C; dsimp only
  exact ⟨_, List.mem_cons_self, View.mem_set_unit_zero zeroOff1 inb_S32x512_S32x512_0_0 y⟩

theorem sread1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32)
    {sig' : RefSig} {κ' : Kind} {sp' : Space} (v : View sig' κ' sp' S32x512 .f32) (f : v.ty.Contents (Elt F)) :
    v.read (Elt F) (v.writes (Elt F) f (kernelRun1_C c i arg2 harg2 arg3 harg3 arg4 harg4 arg5 harg5 hc0 hc1 x0 x1 xs0).2.1) = k1_pay2 x0 x1 xs0 := by
  rw [View.read_writes_eq_canon _ _ _ (scover1_C c i arg2 harg2 arg3 harg3 arg4 harg4 arg5 harg5 hc0 hc1 x0 x1 xs0)]
  unfold kernelRun1_C; dsimp only
  sl_unfold_run_names
  rw [View.canon_cons_unit_zero zeroOff1]
  simp only [View.readAt_eq_ld, harg2.read_unread, harg3.read_unread, harg5.read_unread, View.ld_unit_zero (S := S32x4096) zeroOff1, View.ld_unit_zero (S := S4096x512) zeroOff1, View.ld_unit_zero (S := S32x512) zeroOff1]

theorem ocover1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32) (y : S32x512.Idx) :
    ∃ pc ∈ (kernelRun1_C c i arg2 harg2 arg3 harg3 arg4 harg4 arg5 harg5 hc0 hc1 x0 x1 xs0).1, y ∈ pc.1.set := by
  unfold kernelRun1_C; dsimp only
  exact ⟨_, List.mem_cons_self, View.mem_set_unit_zero zeroOff1 inb_S32x512_S32x512_0_0 y⟩

/-- The output block's buffer is stored what the scratch reads after its own store. -/
theorem oread1_C (c : Dev nD) (i : grid1.Coords) (arg2 : Memref sig .tc .vmem S32x4096 .f32) (harg2 : arg2.IsWhole) (arg3 : Memref sig .tc .vmem S4096x512 .f32) (harg3 : arg3.IsWhole) (arg4 : Memref sig .tc .vmem S32x512 .f32) (harg4 : arg4.IsWhole) (arg5 : Memref sig .tc .vmem S32x512 .f32) (harg5 : arg5.IsWhole) (hc0 : ¬cond1_0 i) (hc1 : cond1_1 i)
    (x0 : Vec F S32x4096 .f32) (x1 : Vec F S4096x512 .f32) (xs0 : Vec F S32x512 .f32)
    {sig' : RefSig} {κ' : Kind} {sp' : Space} (v : View sig' κ' sp' S32x512 .f32) (f : v.ty.Contents (Elt F)) :
    v.read (Elt F) (v.writes (Elt F) f (kernelRun1_C c i arg2 harg2 arg3 harg3 arg4 harg4 arg5 harg5 hc0 hc1 x0 x1 xs0).1) = k1_pay2 x0 x1 xs0 := by
  rw [View.read_writes_eq_canon _ _ _ (ocover1_C c i arg2 harg2 arg3 harg3 arg4 harg4 arg5 harg5 hc0 hc1 x0 x1 xs0)]
  unfold kernelRun1_C; dsimp only
  sl_unfold_run_names
  rw [View.canon_cons_unit_zero zeroOff1]
  rw [View.readCov_unit_zero _ zeroOff1]
  simp only [View.readAt_eq_ld, harg2.read_unread, harg3.read_unread, harg5.read_unread, View.ld_unit_zero (S := S32x4096) zeroOff1, View.ld_unit_zero (S := S4096x512) zeroOff1, View.ld_unit_zero (S := S32x512) zeroOff1]

end Cert.KernelIdeal.Hand

end
-- ==== Proof.KIRegion1.lean ====
/-
  The second kernel region (the projection, its contraction axis cut into eight blocks accumulated in a scratch buffer) at any float instance: the body's triple at every grid point from the three cases' runs, the library's body obligation, and the invariant at the region's two ends.
-/
import proofs.«181341_j65197603553867_2_alg».proof.Proof.KIRegion1Pieces
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position of the contraction block in its column block says which
    of the three cases runs. At a first block the scratch comes in at anything (from the class's invariant at the first point of all,
    else by forgetting what the column block before left) and goes out at the product added to zero; at a later block it comes in at
    the accumulator of the point before and goes out with the product added. Off the last block the output window is idle and its
    buffer is handed back as found; at the last block it is stored the accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t h0]
    by_cases hz : t.val = 0
    · rw [PhiS1_castSucc V c t, PhiS1_zero V c _ _ hz, PhiA1_eq]
      iintro ⟨⟨⟨Hr, HS0⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr HS0 Hg]
      · isplitr [Hg]
        · isplitl [Hr]; · iexact Hr
          unfold owns; iexists _; isplitr
          swap; · iexact HS0
          ipureintro; exact sread1_A c (grid1.coords t) (ms1_0 t) (hs1_0 t) (ms1_1 t) (hs1_1 t) (ms1_2 t) (hs1_2 t) scM1 (Memref.isWhole_whole _) hc0 hc1 (iblk1 V c 0 t) (iblk1 V c 1 t) _ _
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hr HS0 Hg]
      · isplitr [Hg]
        · isplitl [Hr]; · iexact Hr
          unfold owns; iexists _; isplitr
          swap; · iexact HS0
          ipureintro; exact sread1_A c (grid1.coords t) (ms1_0 t) (hs1_0 t) (ms1_1 t) (hs1_1 t) (ms1_2 t) (hs1_2 t) scM1 (Memref.isWhole_whole _) hc0 hc1 (iblk1 V c 0 t) (iblk1 V c 1 t) _ _
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
          unfold Dat.leavesExact; rw [liveAt1_2 t hc1], after1_2]
      rw [acc1_next V c t h0]
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hr HS0 Hg]
      · isplitr [Hg]
        · isplitl [Hr]; · iexact Hr
          unfold owns; iexists _; isplitr
          swap; · iexact HS0
          ipureintro; exact sread1_C c (grid1.coords t) (ms1_0 t) (hs1_0 t) (ms1_1 t) (hs1_1 t) (ms1_2 t) (hs1_2 t) scM1 (Memref.isWhole_whole _) hc0 hc1 (iblk1 V c 0 t) (iblk1 V c 1 t) _ _ _
        iexact Hg
      isplitl [Ho]; · iexact Ho
      isplitl [H0]; · iexact H0
      isplitl [H1]; · iexact H1
      unfold owns; iexists _; isplitr
      swap; · iexact H2
      ipureintro; exact oread1_C c (grid1.coords t) (ms1_0 t) (hs1_0 t) (ms1_1 t) (hs1_1 t) (ms1_2 t) (hs1_2 t) scM1 (Memref.isWhole_whole _) hc0 hc1 (iblk1 V c 0 t) (iblk1 V c 1 t) _ _ _
    · have hc1 : ¬cond1_1 (grid1.coords t) := fun h => h1 ((hcond1_1 t).mp h)
      rw [Dat.leavesExact_idle (dat1 V c) 2 t (idleAt1_2 t hc1) (noFlush1_2 t hc1)]
      rw [acc1_next V c t h0]
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) hc0 hc1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr HS0 Hg]
      · isplitr [Hg]
        · isplitl [Hr]; · iexact Hr
          unfold owns; iexists _; isplitr
          swap; · iexact HS0
          ipureintro; exact sread1_B c (grid1.coords t) (ms1_0 t) (hs1_0 t) (ms1_1 t) (hs1_1 t) (ms1_2 t) (hs1_2 t) scM1 (Memref.isWhole_whole _) hc0 hc1 (iblk1 V c 0 t) (iblk1 V c 1 t) _ _ _
        iexact Hg
      isplitl [Ho]; · iexact Ho
      isplitl [H0]; · iexact H0
      isplitl [H1]; · iexact H1
      iexists _; iexact H2

/-- The library's body obligation for the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr, HS0⟩, Hg⟩
  isplitl [Hr HS0]
  · isplitl [Hr]; · iexact Hr
    iexists _; iexact HS0
  iexact Hg

/-- After the last point the invariant gives the class's back: the accumulator's named contents are forgotten. -/
theorem hout1 (c : Dev nD) : (dat1 V c).Φ (Fin.last cfg1.N) ⊢ Pipeline.ΦA spec1 c :=
  Phi_out1 V c _ (by rw [Fin.val_last]; have : cfg1.N = 16 := N_1; omega)

end Region1

end Cert.KernelIdeal.Hand

end
-- ==== Proof.KIRun.lean ====
/-
  The run of the whole program at any float instance: its four items — a reshape of the bias, the first kernel region, a reshape of its output, the second kernel region — as segments between thread states that hold every unscoped buffer at named contents; every weakly fair execution terminates, and at the end every unscoped buffer holds what the last state names: the arguments as launched, the result at what the second region's write-backs leave.
-/
import proofs.«181341_j65197603553867_2_alg».proof.Proof.KIRegion0
import proofs.«181341_j65197603553867_2_alg».proof.Proof.KIRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the bias is reshaped to a row (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first region's output is flattened (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg4) := rfl

/-- The result buffer ends at what the second region's write-backs leave in its output window's array. -/
theorem W4_main_v3 (c : Dev nD) : W4 m ρ c (Proc.devRef .tc main_v3) = (dat1 (V3 m ρ) c).arrAt 2 cfg1.N :=
  W4_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.KernelIdeal.Hand

end
-- ==== Proof.KIValue0Blocks.lean ====
/-
  The first kernel region's blocks as parts of its arrays, on the extended reals. Point t of the eight stages batches
  4t … 4t+3 of the descriptors and writes back batches 4t … 4t+3 of the output; the assignment weights, the bias row
  and the centers are staged whole at every point. So a block of four batches that agrees, batch by batch, with one
  function of the whole output's index is that function read through the point's output block, and every batch b is
  covered by the point b / 4.
-/
import proofs.«181341_j65197603553867_2_alg».proof.Proof.KIRegion0
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps of the first region, decided over its eight points: the descriptor window and the output window
    move along the batch axis with the point; the weights, the bias row and the centers are one block each. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The descriptor block of point `t` holds batches `4t … 4t + 3` of the input. -/
theorem iblk0_0_apply (c : Dev nD) (t : Fin cfg0.N) (i : Fin 4) (t' : Fin 1024) (d' : Fin 512) (b : Fin 32)
    (hb : b.val = 4 * t.val + i.val) :
    (iblk0 V c 0 t : Vec Ideal S4x1024x512 .f32) (ix3 i t' d') = (V c main_arg0 : S32x1024x512.Idx → EReal) (ix3 b t' d') := by
  obtain ⟨e0, e1, e2⟩ := idx0_0 t
  show V c main_arg0 (((cfg0.win 0).blk t).view.emb (ix3 i t' d')) = _
  refine congrArg _ (funext fun a => Fin.ext ?_)
  match a with
  | ⟨0, _⟩ => show win0_0.index t (0 : Fin 3) * 4 + 1 * i.val = b.val; omega
  | ⟨1, _⟩ => show win0_0.index t (1 : Fin 3) * 1024 + 1 * t'.val = t'.val; omega
  | ⟨2, _⟩ => show win0_0.index t (2 : Fin 3) * 512 + 1 * d'.val = d'.val; omega

/-- The weights, the bias row and the centers are staged whole: their block at any point is the array. -/
theorem iblk0_1_eq (c : Dev nD) (t : Fin cfg0.N) : (iblk0 V c 1 t : Vec Ideal S512x64 .f32) = V c main_arg1 := by
  obtain ⟨e0, e1⟩ := idx0_1 t
  funext j
  show V c main_arg1 (((cfg0.win 1).blk t).view.emb j) = V c main_arg1 j
  refine congrArg _ (funext fun a => Fin.ext ?_)
  match a with
  | ⟨0, _⟩ => show win0_1.index t (0 : Fin 2) * 512 + 1 * (j 0).val = (j 0).val; omega
  | ⟨1, _⟩ => show win0_1.index t (1 : Fin 2) * 64 + 1 * (j 1).val = (j 1).val; omega
theorem iblk0_2_eq (c : Dev nD) (t : Fin cfg0.N) : (iblk0 V c 2 t : Vec Ideal S1x64 .f32) = V c main_v0 := by
  obtain ⟨e0, e1⟩ := idx0_2 t
  funext j
  show V c main_v0 (((cfg0.win 2).blk t).view.emb j) = V c main_v0 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 64 + 1 * (j 1).val = (j 1).val; omega
theorem iblk0_3_eq (c : Dev nD) (t : Fin cfg0.N) : (iblk0 V c 3 t : Vec Ideal S64x512 .f32) = V c main_arg3 := by
  obtain ⟨e0, e1⟩ := idx0_3 t
  funext j
  show V c main_arg3 (((cfg0.win 3).blk t).view.emb j) = V c main_arg3 j
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 512 + 1 * (j 1).val = (j 1).val; omega

/-- A block of four batches that agrees with a whole-array function at batches `4t … 4t + 3` is that function read
    through point `t`'s output block. -/
theorem cut_read (t : Fin cfg0.N) (X : Vec Ideal S4x64x512 .f32) (G : S32x64x512.Idx → EReal)
    (h : ∀ (i : Fin 4) (k : Fin 64) (d : Fin 512) (b : Fin 32), b.val = 4 * t.val + i.val → X (ix3 i k d) = G (ix3 b k d)) :
    (cfg0.win 4).cut (grid0.coords t) X = ((cfg0.win 4).blk t).view.read (Elt Ideal) G := by
  obtain ⟨e0, e1, e2⟩ := idx0_4 t
  have hN : grid0.N = 8 := N_0
  have ht : t.val < grid0.N := t.isLt
  funext j
  have hj0 : (j 0).val < 4 := (j 0).isLt
  have hj1 : (j 1).val < 64 := (j 1).isLt
  have hj2 : (j 2).val < 512 := (j 2).isLt
  show X ((cfg0.win 4).xinj (grid0.coords t) j) = G (((cfg0.win 4).blk t).view.emb j)
  have e : ((cfg0.win 4).xinj (grid0.coords t) j : S4x64x512.Idx)
      = ix3 (⟨(j 0).val, hj0⟩ : Fin 4) (⟨(j 1).val, hj1⟩ : Fin 64) (⟨(j 2).val, hj2⟩ : Fin 512) :=
    funext fun a => Fin.ext (by match a with | ⟨0, _⟩ => rfl | ⟨1, _⟩ => rfl | ⟨2, _⟩ => rfl)
  refine (congrArg X e).trans ((h _ _ _ ⟨4 * t.val + (j 0).val, by omega⟩ rfl).trans (congrArg G (funext fun a => Fin.ext ?_)))
  match a with
  | ⟨0, _⟩ => show 4 * t.val + (j 0).val = win0_4.index t (0 : Fin 3) * 4 + 1 * (j 0).val; omega
  | ⟨1, _⟩ => show (j 1).val = win0_4.index t (1 : Fin 3) * 64 + 1 * (j 1).val; omega
  | ⟨2, _⟩ => show (j 2).val = win0_4.index t (2 : Fin 3) * 512 + 1 * (j 2).val; omega

/-- Every batch lies in the output block of the point `b / 4`. -/
theorem cover0_arr (i : S32x64x512.Idx) :
    ∃ t : Fin cfg0.N, (cfg0.win 4).flush t = true ∧ i ∈ ((cfg0.win 4).blk t).view.set := by
  have hN : grid0.N = 8 := N_0
  have hi0 : (i 0).val < 32 := (i 0).isLt
  have hi1 : (i 1).val < 64 := (i 1).isLt
  have hi2 : (i 2).val < 512 := (i 2).isLt
  obtain ⟨t, ht⟩ : ∃ t : Fin cfg0.N, t.val = (i 0).val / 4 := ⟨⟨(i 0).val / 4, by show _ < grid0.N; omega⟩, rfl⟩
  obtain ⟨e0, e1, e2⟩ := idx0_4 t
  refine ⟨t, flush0_4 t, ?_⟩
  show i ∈ ((View.whole main_v1).slice (win0_4.rect t)).set
  rw [View.set_slice_whole, Rect.mem_set_unit]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 64 ≤ (i 1).val ∧ (i 1).val < win0_4.index t (1 : Fin 3) * 64 + 64; omega
  | ⟨2, _⟩ => show win0_4.index t (2 : Fin 3) * 512 ≤ (i 2).val ∧ (i 2).val < win0_4.index t (2 : Fin 3) * 512 + 512; omega

end Cert.KernelIdeal.Hand

end
-- ==== Proof.Spec.lean ====
/-
  The specification both programs meet, index by index, on the extended reals.

  For one batch with descriptors xb(t,d), a time step t and a cluster k the logit is
  l(t,k) = Σ_d xb(t,d)·w(d,k) + bias(k); the soft assignment a(t,k) = exp(l(t,k) − max_k' l(t,k')) / Σ_k' exp(l(t,k') − max …);
  the residual of cluster k is r(k,d) = Σ_t a(t,k)·xb(t,d) − (Σ_t a(t,k))·c(k,d); it is scaled by the inverse root of
  its own squared length over d (floored at ε), then the whole [64,512] matrix by the inverse root of its squared
  length over (k,d) (floored at ε); the result is that matrix, flattened row-major to 32768 entries, times the projection.
-/
import Idealize.ShloMosaic.PureOps.Ideal
import Idealize.ShloMosaic.Lib.ValueIdx

noncomputable section

namespace Cert.Spec

open Idealize.ShloMosaic Idealize.ShloMosaic.ValueIdx

/-- The floor ε under both square roots, as the shared float literal reads. -/
abbrev eps : EReal := Ideal.ofBits .f32 0x2B8CBCCC#32
/-- The start value of the row maximum, −∞ as the shared float literal reads. -/
abbrev ninf : EReal := Ideal.ofBits .f32 0xFF800000#32

section Batch

variable (xb : Fin 1024 → Fin 512 → EReal) (w : (⟨2, ![512, 64]⟩ : Shape).Idx → EReal)
  (bias : (⟨1, ![64]⟩ : Shape).Idx → EReal) (cen : (⟨2, ![64, 512]⟩ : Shape).Idx → EReal)

/-- The logit of cluster `k` at time step `t`. -/
def logit (t : Fin 1024) (k : Fin 64) : EReal :=
  (∑ d : Fin 512, xb t d * w (ix2 d k)) + bias (ix1 k)

/-- The maximum of a row of 64 logits, taken from −∞ (twice, as both programs do). -/
def rowmax (l : Fin 64 → EReal) : EReal :=
  max ninf ((Finset.univ : Finset (Fin 64)).fold max ninf l)

/-- The shifted exponential. -/
def ex (t : Fin 1024) (k : Fin 64) : EReal :=
  Ideal.exp (logit xb w bias t k - rowmax (logit xb w bias t))

/-- The soft assignment of time step `t` to cluster `k`. -/
def assign (t : Fin 1024) (k : Fin 64) : EReal :=
  Ideal.div (ex xb w bias t k) (∑ k' : Fin 64, ex xb w bias t k')

/-- The residual of cluster `k`: the assigned descriptors summed over time, less the assigned mass times the center. -/
def resid (k : Fin 64) (d : Fin 512) : EReal :=
  (∑ t : Fin 1024, assign xb w bias t k * xb t d) - (∑ t : Fin 1024, assign xb w bias t k) * cen (ix2 k d)

/-- Each cluster's residual scaled to unit length (its squared length floored at ε). -/
def unit1 (k : Fin 64) (d : Fin 512) : EReal :=
  resid xb w bias cen k d * Ideal.rsqrt (max (∑ d' : Fin 512, resid xb w bias cen k d' * resid xb w bias cen k d') eps)

/-- The squared length of the whole matrix of scaled residuals. -/
def gss : EReal :=
  ∑ k : Fin 64, ∑ d : Fin 512, unit1 xb w bias cen k d * unit1 xb w bias cen k d

/-- The descriptor of the batch: the matrix scaled to unit length (its squared length floored at ε). -/
def vladB (k : Fin 64) (d : Fin 512) : EReal :=
  unit1 xb w bias cen k d * Ideal.rsqrt (max (gss xb w bias cen) eps)

end Batch

variable (x : (⟨3, ![32, 1024, 512]⟩ : Shape).Idx → EReal) (w : (⟨2, ![512, 64]⟩ : Shape).Idx → EReal)
  (bias : (⟨1, ![64]⟩ : Shape).Idx → EReal) (cen : (⟨2, ![64, 512]⟩ : Shape).Idx → EReal)
  (red : (⟨2, ![32768, 1024]⟩ : Shape).Idx → EReal)

/-- The descriptor of batch `b` of the whole input. -/
def vlad (b : Fin 32) (k : Fin 64) (d : Fin 512) : EReal :=
  vladB (fun t d => x (ix3 b t d)) w bias cen k d

/-- The flattened descriptors: entry `j` of batch `b` is cluster `j / 512`, coordinate `j % 512`. -/
def flat (b : Fin 32) (j : Fin 32768) : EReal :=
  vlad x w bias cen b ⟨j.val / 512, by have := j.isLt; omega⟩ ⟨j.val % 512, Nat.mod_lt _ (by norm_num)⟩

/-- The result: the flattened descriptor times the projection. -/
def out (b : Fin 32) (o : Fin 1024) : EReal :=
  ∑ j : Fin 32768, flat x w bias cen b j * red (ix2 j o)

end Cert.Spec

end
-- ==== Proof.KIBatchDefs.lean ====
/-
  The arithmetic of one batch, stage by stage, as functions of whole vectors: the logits, the soft assignment,
  the residual, the row-normalized residual and the matrix-normalized slab. Each of the four batches a grid point
  handles stores the composite of these five stages; the equations at the end say so.
-/
import proofs.«181341_j65197603553867_2_alg».proof.Proof.Gen.KernelIdeal.Skeleton
import Idealize.ShloMosaic.PureOps.Ideal

noncomputable section

namespace Cert.KernelIdeal.Hand

open Idealize.ShloMosaic
open Cert.KernelIdeal Cert.KernelIdeal.Gen

/-- The logits: descriptors times weights, plus the bias row on every row. -/
def lgV (x1 : FVec Ideal S512x64 .f32) (v2 : FVec Ideal S1x64 .f32) (x5 : FVec Ideal S1024x512 .f32) : FVec Ideal S1024x64 .f32 :=
  addf (matmul dot_S1024x512_S512x64_S1024x64_1_0_0_1_n_n (some .fp32) x5 x1 (constant S1024x64 .f32 0x00000000#32))
    (broadcastTo S1024x64 v2 broadcasts_S1x64_S1024x64)

/-- The row maximum of a [1024,64] matrix, from −∞ twice, kept as a column and spread over the row. -/
def rmV (l : FVec Ideal S1024x64 .f32) : FVec Ideal S1024x64 .f32 :=
  broadcastTo S1024x64
    (shapeCast S1024x1
      (maximumf (broadcast S1024 (Scalar.ofBits .f32 0xFF800000#32))
        (multiReduction .maximumf [1] S1024 l 0xFF800000#32 reduces_S1024x64_S1024 (.inl rfl) rfl))
      shapeCasts_S1024_S1024x1)
    broadcasts_S1024x1_S1024x64

/-- The shifted exponentials. -/
def exV (l : FVec Ideal S1024x64 .f32) : FVec Ideal S1024x64 .f32 := exp (subf l (rmV l))

/-- The row sum of a [1024,64] matrix, kept as a column and spread over the row. -/
def rsumV (e : FVec Ideal S1024x64 .f32) : FVec Ideal S1024x64 .f32 :=
  broadcastTo S1024x64
    (shapeCast S1024x1 (multiReduction .add [1] S1024 e 0x00000000#32 reduces_S1024x64_S1024 (.inl rfl) rfl) shapeCasts_S1024_S1024x1)
    broadcasts_S1024x1_S1024x64

/-- The soft assignment: the softmax of each row of logits. -/
def asV (l : FVec Ideal S1024x64 .f32) : FVec Ideal S1024x64 .f32 := divf (exV l) (rsumV (exV l))

/-- The residual: assigned descriptors summed over time, less the assigned mass times the centers. -/
def rsV (a : FVec Ideal S1024x64 .f32) (x3 : FVec Ideal S64x512 .f32) (x5 : FVec Ideal S1024x512 .f32) : FVec Ideal S64x512 .f32 :=
  subf
    (matmul dot_S64x1024_S1024x512_S64x512_1_0_0_1_n_n (some .fp32)
      (transpose S64x1024 [1, 0] a transposes_S1024x64_p1_0_S64x1024) x5 (constant S64x512 .f32 0x00000000#32))
    (mulf
      (broadcastTo S64x512
        (shapeCast S64x1 (multiReduction .add [0] S64 a 0x00000000#32 reduces_S1024x64_S64 (.inl rfl) rfl) shapeCasts_S64_S64x1)
        broadcasts_S64x1_S64x512)
      x3)

/-- Each row scaled by the inverse root of its squared length, floored at ε. -/
def u1V (r : FVec Ideal S64x512 .f32) : FVec Ideal S64x512 .f32 :=
  mulf r
    (broadcastTo S64x512
      (rsqrt
        (maximumf
          (shapeCast S64x1 (multiReduction .add [1] S64 (mulf r r) 0x00000000#32 reduces_S64x512_S64 (.inl rfl) rfl) shapeCasts_S64_S64x1)
          (broadcast S64x1 (Scalar.ofBits .f32 0x2B8CBCCC#32))))
      broadcasts_S64x1_S64x512)

/-- The squared length of the whole matrix, as a one-entry vector. -/
def gsV (u : FVec Ideal S64x512 .f32) : FVec Ideal S1 .f32 :=
  multiReduction .add [1, 2] S1 (shapeCast S1x64x512 (mulf u u) shapeCasts_S64x512_S1x64x512) 0x00000000#32 reduces_S1x64x512_S1 (.inl rfl) rfl

/-- The whole matrix scaled by the inverse root of its squared length, floored at ε, as a [1,64,512] slab. -/
def finV (u : FVec Ideal S64x512 .f32) : FVec Ideal S1x64x512 .f32 :=
  shapeCast S1x64x512
    (mulf u
      (broadcastTo S64x512
        (rsqrt
          (maximumf
            (broadcast S1x1 (extractAt ![0, 0, 0] (shapeCast S1x1x1 (gsV u) shapeCasts_S1_S1x1x1) inpos_S1x1x1_p0_0_0))
            (broadcast S1x1 (Scalar.ofBits .f32 0x2B8CBCCC#32))))
        broadcasts_S1x1_S64x512))
    shapeCasts_S64x512_S1x64x512

/-- The five stages composed: one batch's stored slab. -/
def slabV (x1 : FVec Ideal S512x64 .f32) (v2 : FVec Ideal S1x64 .f32) (x3 : FVec Ideal S64x512 .f32) (xb : Vec Ideal S1x1024x512 .f32) :
    FVec Ideal S1x64x512 .f32 :=
  finV (u1V (rsV (asV (lgV x1 v2 (shapeCast S1024x512 xb shapeCasts_S1x1024x512_S1024x512))) x3
    (shapeCast S1024x512 xb shapeCasts_S1x1024x512_S1024x512)))

end Cert.KernelIdeal.Hand

end
-- ==== Proof.LibSumIdx3.lean ====
/- A sum over a rank-3 index set as the triple sum over its coordinates (the rank-3 companion of the library's
   `idxEquiv2` / `sum_idx2`): a rank-3 index is the triple of its coordinates, so any sum over the indices of a
   shape `[n0, n1, n2]`, in any commutative additive monoid, is `∑ a, ∑ b, ∑ c` of the summand at `ix3 a b c`.
   What a full reduction of a rank-3 array (a `jnp.sum` or `jnp.mean` over every axis) needs to meet a sum taken
   axis by axis. -/
import Idealize.ShloMosaic.Lib.ValueIdx

noncomputable section

open scoped BigOperators

namespace Cert.Loss

open Idealize.ShloMosaic Idealize.ShloMosaic.ValueIdx

/-- A rank-3 index set is the product of its three coordinate ranges: an index is the triple of its coordinates,
    and a triple of coordinates is the index they build. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Loss

end
-- ==== Proof.KIBatchOps.lean ====
/-
  The reductions and layout steps of one batch, each read at an index given by coordinates: a row maximum and a
  row sum of a [1024,64] matrix, its column sum, a row sum of a [64,512] matrix, and the total of a [1,64,512] slab.
-/
import proofs.«181341_j65197603553867_2_alg».proof.Proof.Gen.KernelIdeal.Skeleton
import proofs.«181341_j65197603553867_2_alg».proof.Proof.LibSumIdx3
import Idealize.ShloMosaic.PureOps.Ideal.Laws
import Idealize.ShloMosaic.Lib.ValueIdx

noncomputable section

namespace Cert.KernelIdeal.Hand

open Idealize.ShloMosaic Idealize.ShloMosaic.ValueIdx
open Cert.KernelIdeal Cert.KernelIdeal.Gen

/-- The maximum over a row of a [1024,64] matrix, started from −∞: the fold of `max` over the row's 64 entries. -/
theorem rowmax64_apply (l : FVec Ideal S1024x64 .f32) (t : Fin 1024) :
    multiReduction .maximumf [1] S1024 l 0xFF800000#32 reduces_S1024x64_S1024 (.inl rfl) rfl (ix1 t)
      = (Finset.univ : Finset (Fin 64)).fold max (Ideal.ofBits .f32 0xFF800000#32) (fun k => l (ix2 t k)) := by
  refine (Ideal.multiReduction_maximumf_single l 0xFF800000#32 reduces_S1024x64_S1024 (.inl rfl) rfl (ix1 t)).trans ?_
  refine congrArg ((Finset.univ : Finset (Fin 64)).fold max (Ideal.ofBits .f32 0xFF800000#32)) (funext fun k => congrArg l (funext fun ax => Fin.ext ?_))
  match ax with
  | ⟨0, _⟩ => rfl
  | ⟨1, _⟩ => rfl

/-- The sum over a row of a [1024,64] matrix. -/
theorem rowsum64_apply (e : FVec Ideal S1024x64 .f32) (t : Fin 1024) :
    multiReduction .add [1] S1024 e 0x00000000#32 reduces_S1024x64_S1024 (.inl rfl) rfl (ix1 t) = ∑ k : Fin 64, e (ix2 t k) := by
  refine (Ideal.multiReduction_add_single e 0x00000000#32 reduces_S1024x64_S1024 (.inl rfl) rfl (ix1 t)).trans ?_
  refine Finset.sum_congr rfl fun k _ => congrArg e (funext fun ax => Fin.ext ?_)
  match ax with
  | ⟨0, _⟩ => rfl
  | ⟨1, _⟩ => rfl

/-- The sum over a column of a [1024,64] matrix. -/
theorem colsum1024_apply (a : FVec Ideal S1024x64 .f32) (k : Fin 64) :
    multiReduction .add [0] S64 a 0x00000000#32 reduces_S1024x64_S64 (.inl rfl) rfl (ix1 k) = ∑ t : Fin 1024, a (ix2 t k) := by
  refine (Ideal.multiReduction_add_single a 0x00000000#32 reduces_S1024x64_S64 (.inl rfl) rfl (ix1 k)).trans ?_
  refine Finset.sum_congr rfl fun t _ => congrArg a (funext fun ax => Fin.ext ?_)
  match ax with
  | ⟨0, _⟩ => rfl
  | ⟨1, _⟩ => rfl

/-- The sum over a row of a [64,512] matrix. -/
theorem rowsum512_apply (r : FVec Ideal S64x512 .f32) (k : Fin 64) :
    multiReduction .add [1] S64 r 0x00000000#32 reduces_S64x512_S64 (.inl rfl) rfl (ix1 k) = ∑ d : Fin 512, r (ix2 k d) := by
  refine (Ideal.multiReduction_add_single r 0x00000000#32 reduces_S64x512_S64 (.inl rfl) rfl (ix1 k)).trans ?_
  refine Finset.sum_congr rfl fun d _ => congrArg r (funext fun ax => Fin.ext ?_)
  match ax with
  | ⟨0, _⟩ => rfl
  | ⟨1, _⟩ => rfl

/-- The total of a [1,64,512] slab: the double sum over its last two coordinates. -/
theorem total_apply (s : FVec Ideal S1x64x512 .f32) (j : S1.Idx) :
    multiReduction .add [1, 2] S1 s 0x00000000#32 reduces_S1x64x512_S1 (.inl rfl) rfl j
      = ∑ k : Fin 64, ∑ d : Fin 512, s (ix3 (0 : Fin 1) k d) := by
  refine (Ideal.multiReduction_add_total s 0x00000000#32 reduces_S1x64x512_S1 (fun b => ?_) (.inl rfl) rfl j).trans ?_
  · match b with
    | ⟨0, _⟩ => rfl
  · refine (Cert.Loss.sum_idx3 (n0 := 1) (n1 := 64) (n2 := 512) s).trans ?_
    exact Fin.sum_univ_one _

end Cert.KernelIdeal.Hand

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KIBatchStages.lean ====
/-
  The five stages of one batch read at an index: the logit, the soft assignment, the residual, the row-normalized
  residual and the matrix-normalized slab, each as the formula the specification writes, over the stage's operand.
-/
import proofs.«181341_j65197603553867_2_alg».proof.Proof.KIBatchDefs
import proofs.«181341_j65197603553867_2_alg».proof.Proof.KIBatchOps
import proofs.«181341_j65197603553867_2_alg».proof.Proof.LibMatmulRead
import proofs.«181341_j65197603553867_2_alg».proof.Proof.LibColumnLayout
import proofs.«181341_j65197603553867_2_alg».proof.Proof.Spec
import Idealize.ShloMosaic.Lib.ValueLayout

noncomputable section

namespace Cert.KernelIdeal.Hand

open Idealize.ShloMosaic Idealize.ShloMosaic.ValueIdx
open Cert.KernelIdeal Cert.KernelIdeal.Gen

/-- An inverse square root of a vector at an index is the inverse square root of the element. -/
theorem rsqrt_apply {s : Shape} {φ : FTy} (a : FVec Ideal s φ) (i : s.Idx) : rsqrt a i = Ideal.rsqrt (a i) := rfl
/-- An exponential of a vector at an index is the exponential of the element. -/
theorem exp_apply {s : Shape} {φ : FTy} (a : FVec Ideal s φ) (i : s.Idx) : exp a i = Ideal.exp (a i) := rfl

/-- The logit of cluster `k` at time step `t`: the descriptor row times the weight column, plus the bias entry. -/
theorem lgV_apply (x1 : FVec Ideal S512x64 .f32) (v2 : FVec Ideal S1x64 .f32) (x5 : FVec Ideal S1024x512 .f32)
    (t : Fin 1024) (k : Fin 64) :
    lgV x1 v2 x5 (ix2 t k) = (∑ d : Fin 512, x5 (ix2 t d) * x1 (ix2 d k)) + v2 (ix2 (0 : Fin 1) k) := by
  unfold lgV
  rw [addf_apply, matmul_ix2_apply _ rfl rfl rfl rfl rfl rfl, broadcastTo_1b_ab_apply]

/-- The spread row maximum at `(t, k)` is the maximum of row `t`. -/
theorem rmV_apply (l : FVec Ideal S1024x64 .f32) (t : Fin 1024) (k : Fin 64) :
    rmV l (ix2 t k) = Cert.Spec.rowmax (fun k' => l (ix2 t k')) := by
  unfold rmV Cert.Spec.rowmax
  rw [broadcastTo_a1_ab_apply, shapeCast_a_a1_apply, maximumf_apply, broadcast_apply, rowmax64_apply]
  rfl

/-- The shifted exponential at `(t, k)`. -/
theorem exV_apply (l : FVec Ideal S1024x64 .f32) (t : Fin 1024) (k : Fin 64) :
    exV l (ix2 t k) = Ideal.exp (l (ix2 t k) - Cert.Spec.rowmax (fun k' => l (ix2 t k'))) := by
  unfold exV
  rw [exp_apply, subf_apply, rmV_apply]

/-- The spread row sum at `(t, k)` is the sum of row `t`. -/
theorem rsumV_apply (e : FVec Ideal S1024x64 .f32) (t : Fin 1024) (k : Fin 64) :
    rsumV e (ix2 t k) = ∑ k' : Fin 64, e (ix2 t k') := by
  unfold rsumV
  rw [broadcastTo_a1_ab_apply, shapeCast_a_a1_apply, rowsum64_apply]

/-- The soft assignment at `(t, k)`: the shifted exponential over the sum of the row's shifted exponentials. -/
theorem asV_apply (l : FVec Ideal S1024x64 .f32) (t : Fin 1024) (k : Fin 64) :
    asV l (ix2 t k) = Ideal.div (exV l (ix2 t k)) (∑ k' : Fin 64, exV l (ix2 t k')) := by
  unfold asV
  rw [divf_apply, rsumV_apply]

/-- The residual at `(k, d)`: the assigned descriptors summed over time, less the assigned mass times the center. -/
theorem rsV_apply (a : FVec Ideal S1024x64 .f32) (x3 : FVec Ideal S64x512 .f32) (x5 : FVec Ideal S1024x512 .f32)
    (k : Fin 64) (d : Fin 512) :
    rsV a x3 x5 (ix2 k d) = (∑ t : Fin 1024, a (ix2 t k) * x5 (ix2 t d)) - (∑ t : Fin 1024, a (ix2 t k)) * x3 (ix2 k d) := by
  unfold rsV
  rw [subf_apply, mulf_apply, matmul_ix2_apply _ rfl rfl rfl rfl rfl rfl, broadcastTo_a1_ab_apply, shapeCast_a_a1_apply,
    colsum1024_apply]
  refine congrArg (· - _) (Finset.sum_congr rfl fun t _ => congrArg (· * _) ?_)
  exact transpose_ix2_apply a _ k t

/-- The row-normalized matrix at `(k, d)`. -/
theorem u1V_apply (r : FVec Ideal S64x512 .f32) (k : Fin 64) (d : Fin 512) :
    u1V r (ix2 k d) = r (ix2 k d) * Ideal.rsqrt (max (∑ d' : Fin 512, r (ix2 k d') * r (ix2 k d')) Cert.Spec.eps) := by
  unfold u1V
  rw [mulf_apply, broadcastTo_a1_ab_apply, rsqrt_apply, maximumf_apply, shapeCast_a_a1_apply, rowsum512_apply, broadcast_apply]
  rfl

/-- A one-entry matrix spread over a [64,512] matrix reads its one entry everywhere. -/
theorem broadcastTo_11_ab_apply {α : Type} (v : S1x1.Idx → α) (k : Fin 64) (d : Fin 512) :
    broadcastTo S64x512 v broadcasts_S1x1_S64x512 (ix2 k d) = v (ix2 (0 : Fin 1) (0 : Fin 1)) := by
  refine broadcastTo_apply v broadcasts_S1x1_S64x512 (ix2 k d) (ix2 (0 : Fin 1) (0 : Fin 1)) fun ax => ?_
  match ax with
  | ⟨0, _⟩ => rfl
  | ⟨1, _⟩ => rfl

/-- The squared length of the whole matrix, read off the one-entry vector. -/
theorem gsV_extract (u : FVec Ideal S64x512 .f32) :
    extractAt ![0, 0, 0] (shapeCast S1x1x1 (gsV u) shapeCasts_S1_S1x1x1) inpos_S1x1x1_p0_0_0
      = ∑ k : Fin 64, ∑ d : Fin 512, u (ix2 k d) * u (ix2 k d) := by
  show multiReduction .add [1, 2] S1 (shapeCast S1x64x512 (mulf u u) shapeCasts_S64x512_S1x64x512) 0x00000000#32
    reduces_S1x64x512_S1 (.inl rfl) rfl _ = _
  refine (total_apply _ _).trans ?_
  refine Finset.sum_congr rfl fun k _ => Finset.sum_congr rfl fun d _ => ?_
  rw [shapeCast_ab_1ab_apply]
  rfl

/-- The matrix-normalized slab at `(0, k, d)`. -/
theorem finV_apply (u : FVec Ideal S64x512 .f32) (k : Fin 64) (d : Fin 512) :
    finV u (ix3 (0 : Fin 1) k d)
      = u (ix2 k d) * Ideal.rsqrt (max (∑ k' : Fin 64, ∑ d' : Fin 512, u (ix2 k' d') * u (ix2 k' d')) Cert.Spec.eps) := by
  unfold finV
  rw [shapeCast_ab_1ab_apply, mulf_apply, broadcastTo_11_ab_apply, rsqrt_apply, maximumf_apply, broadcast_apply, broadcast_apply,
    gsV_extract]
  rfl

end Cert.KernelIdeal.Hand

end
-- ==== Proof.KIBatch.lean ====
/-
  One batch's stored slab is the specification's descriptor: the payload of each of the four batches a grid point
  handles, read at cluster k and coordinate d, is the doubly normalized residual of that batch's descriptors.

  The five stages of the arithmetic (logit, soft assignment, residual, row normalization, matrix normalization) are
  read at an index in the stage module; here each is matched with the specification's function of the same name,
  given that its operand is, and the four payloads are unfolded to the composite of the stages.
-/
import proofs.«181341_j65197603553867_2_alg».proof.Proof.Gen.KernelIdeal.Skeleton
import proofs.«181341_j65197603553867_2_alg».proof.Proof.Spec
import proofs.«181341_j65197603553867_2_alg».proof.Proof.KIBatchDefs
import proofs.«181341_j65197603553867_2_alg».proof.Proof.KIBatchStages
import Idealize.ShloMosaic.Lib.ValueIdx
import Idealize.ShloMosaic.Lib.ValueLayout

noncomputable section

namespace Cert.KernelIdeal.Hand

open Idealize.ShloMosaic Idealize.ShloMosaic.ValueIdx
open Cert.KernelIdeal Cert.KernelIdeal.Gen

section Chain

variable (xb : Fin 1024 → Fin 512 → EReal) (w : (⟨2, ![512, 64]⟩ : Shape).Idx → EReal)
  (bias : (⟨1, ![64]⟩ : Shape).Idx → EReal) (cen : (⟨2, ![64, 512]⟩ : Shape).Idx → EReal)

/-- A matrix of the specification's logits has the specification's soft assignment as its row softmax. -/
theorem asV_spec (l : FVec Ideal S1024x64 .f32) (hl : ∀ t k, l (ix2 t k) = Cert.Spec.logit xb w bias t k)
    (t : Fin 1024) (k : Fin 64) : asV l (ix2 t k) = Cert.Spec.assign xb w bias t k := by
  have he : ∀ t k, exV l (ix2 t k) = Cert.Spec.ex xb w bias t k := by
    intro t k
    rw [exV_apply]
    unfold Cert.Spec.ex
    simp only [hl]
  rw [asV_apply]
  unfold Cert.Spec.assign
  simp only [he]

/-- The residual of the specification's assignment against the batch's descriptors and the centers. -/
theorem rsV_spec (a : FVec Ideal S1024x64 .f32) (x5 : FVec Ideal S1024x512 .f32)
    (ha : ∀ t k, a (ix2 t k) = Cert.Spec.assign xb w bias t k) (h5 : ∀ t d, x5 (ix2 t d) = xb t d)
    (k : Fin 64) (d : Fin 512) : rsV a cen x5 (ix2 k d) = Cert.Spec.resid xb w bias cen k d := by
  rw [rsV_apply]
  unfold Cert.Spec.resid
  simp only [ha, h5]

/-- The row normalization of the specification's residual. -/
theorem u1V_spec (r : FVec Ideal S64x512 .f32) (hr : ∀ k d, r (ix2 k d) = Cert.Spec.resid xb w bias cen k d)
    (k : Fin 64) (d : Fin 512) : u1V r (ix2 k d) = Cert.Spec.unit1 xb w bias cen k d := by
  rw [u1V_apply]
  unfold Cert.Spec.unit1
  simp only [hr]

/-- The matrix normalization of the specification's row-normalized residual. -/
theorem finV_spec (u : FVec Ideal S64x512 .f32) (hu : ∀ k d, u (ix2 k d) = Cert.Spec.unit1 xb w bias cen k d)
    (k : Fin 64) (d : Fin 512) : finV u (ix3 (0 : Fin 1) k d) = Cert.Spec.vladB xb w bias cen k d := by
  rw [finV_apply]
  unfold Cert.Spec.vladB Cert.Spec.gss
  simp only [hu]

end Chain

/-- The composite of the five stages at `(0, k, d)` is the specification's descriptor of the batch. -/
theorem slabV_apply (x1 : FVec Ideal S512x64 .f32) (v2 : FVec Ideal S1x64 .f32) (x3 : FVec Ideal S64x512 .f32)
    (xb : Vec Ideal S1x1024x512 .f32) (k : Fin 64) (d : Fin 512) :
    slabV x1 v2 x3 xb (ix3 (0 : Fin 1) k d)
      = Cert.Spec.vladB (fun t d => xb (ix3 (0 : Fin 1) t d)) x1 (fun j => v2 (ix2 (0 : Fin 1) (j 0))) x3 k d := by
  have h5 : ∀ (t : Fin 1024) (d : Fin 512),
      shapeCast S1024x512 xb shapeCasts_S1x1024x512_S1024x512 (ix2 t d) = xb (ix3 (0 : Fin 1) t d) :=
    fun t d => shapeCast_1ab_ab_apply xb shapeCasts_S1x1024x512_S1024x512 t d
  have hl : ∀ (t : Fin 1024) (k : Fin 64),
      lgV x1 v2 (shapeCast S1024x512 xb shapeCasts_S1x1024x512_S1024x512) (ix2 t k)
        = Cert.Spec.logit (fun t d => xb (ix3 (0 : Fin 1) t d)) x1 (fun j => v2 (ix2 (0 : Fin 1) (j 0))) t k := by
    intro t k
    rw [lgV_apply]
    unfold Cert.Spec.logit
    simp only [h5]
  unfold slabV
  exact finV_spec _ _ _ _ _ (u1V_spec _ _ _ _ _ (rsV_spec _ _ _ _ _ _ (asV_spec _ _ _ _ hl) h5)) k d

variable (x1 : Vec Ideal S512x64 .f32) (x2 : Vec Ideal S1x64 .f32) (x3 : Vec Ideal S64x512 .f32) (xb : Vec Ideal S1x1024x512 .f32)

/-- The bias row cast to its own shape is itself. -/
theorem pay2_eq : k0_pay2 (F := Ideal) x2 = x2 := shapeCast_self x2 shapeCasts_S1x64_S1x64

theorem slabB0_apply (k : Fin 64) (d : Fin 512) :
    k0_pay5 (F := Ideal) (k0_pay3 x1 x2 x3 xb) (k0_pay4 x1 x2 x3 xb) (ix3 (0 : Fin 1) k d)
      = Cert.Spec.vladB (fun t d => xb (ix3 (0 : Fin 1) t d)) x1 (fun j => x2 (ix2 (0 : Fin 1) (j 0))) x3 k d := by
  have e : k0_pay5 (F := Ideal) (k0_pay3 x1 x2 x3 xb) (k0_pay4 x1 x2 x3 xb) = slabV x1 (k0_pay2 x2) x3 xb := rfl
  rw [e, pay2_eq]
  exact slabV_apply x1 x2 x3 xb k d

theorem slabB1_apply (k : Fin 64) (d : Fin 512) :
    k0_pay8 (F := Ideal) (k0_pay6 x1 (k0_pay2 x2) x3 xb) (k0_pay7 x1 (k0_pay2 x2) x3 xb) (ix3 (0 : Fin 1) k d)
      = Cert.Spec.vladB (fun t d => xb (ix3 (0 : Fin 1) t d)) x1 (fun j => x2 (ix2 (0 : Fin 1) (j 0))) x3 k d := by
  have e : ∀ v2 : FVec Ideal S1x64 .f32, k0_pay8 (F := Ideal) (k0_pay6 x1 v2 x3 xb) (k0_pay7 x1 v2 x3 xb) = slabV x1 v2 x3 xb :=
    fun _ => rfl
  rw [e, pay2_eq]
  exact slabV_apply x1 x2 x3 xb k d

theorem slabB2_apply (k : Fin 64) (d : Fin 512) :
    k0_pay11 (F := Ideal) (k0_pay9 x1 (k0_pay2 x2) x3 xb) (k0_pay10 x1 (k0_pay2 x2) x3 xb) (ix3 (0 : Fin 1) k d)
      = Cert.Spec.vladB (fun t d => xb (ix3 (0 : Fin 1) t d)) x1 (fun j => x2 (ix2 (0 : Fin 1) (j 0))) x3 k d := by
  have e : ∀ v2 : FVec Ideal S1x64 .f32, k0_pay11 (F := Ideal) (k0_pay9 x1 v2 x3 xb) (k0_pay10 x1 v2 x3 xb) = slabV x1 v2 x3 xb :=
    fun _ => rfl
  rw [e, pay2_eq]
  exact slabV_apply x1 x2 x3 xb k d

theorem slabB3_apply (k : Fin 64) (d : Fin 512) :
    k0_pay1 (F := Ideal) (k0_pay12 x1 (k0_pay2 x2) x3 xb) (k0_pay13 x1 (k0_pay2 x2) x3 xb) (ix3 (0 : Fin 1) k d)
      = Cert.Spec.vladB (fun t d => xb (ix3 (0 : Fin 1) t d)) x1 (fun j => x2 (ix2 (0 : Fin 1) (j 0))) x3 k d := by
  have e : ∀ v2 : FVec Ideal S1x64 .f32, k0_pay1 (F := Ideal) (k0_pay12 x1 v2 x3 xb) (k0_pay13 x1 v2 x3 xb) = slabV x1 v2 x3 xb :=
    fun _ => rfl
  rw [e, pay2_eq]
  exact slabV_apply x1 x2 x3 xb k d

end Cert.KernelIdeal.Hand

end
-- ==== Proof.KIValue0Out.lean ====
/-
  The output block of a point of the first kernel region, read at an index. The body stores four slabs, one per
  batch of the point, each a [1,64,512] slab at its batch's offset along the first axis; read back as one array the
  block at batch i, cluster k, coordinate d is the slab stored for batch i at (k, d), and that slab is the doubly
  normalized residual of batch i of the descriptor block.
-/
import proofs.«181341_j65197603553867_2_alg».proof.Proof.KIRegion0
import proofs.«181341_j65197603553867_2_alg».proof.Proof.KIBatch
import proofs.«181341_j65197603553867_2_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (x0 : Vec Ideal S4x1024x512 .f32) (x1 : Vec Ideal S512x64 .f32) (x2 : Vec Ideal S1x64 .f32) (x3 : Vec Ideal S64x512 .f32)

/-- Slab `i` of a block of four batches, read at time step `t'` and coordinate `d'`, is the block at batch `i`. -/
theorem ld_slab0 (x0 : Vec Ideal S4x1024x512 .f32) (t' : Fin 1024) (d' : Fin 512) :
    View.ld x0 (ldB 0) (ix3 (0 : Fin 1) t' d') = x0 (ix3 (0 : Fin 4) t' d') := by
  refine congrArg x0 (funext fun a => Fin.ext ?_)
  match a with
  | ⟨0, _⟩ => rfl
  | ⟨1, _⟩ => show 0 + 1 * t'.val = t'.val; omega
  | ⟨2, _⟩ => show 0 + 1 * d'.val = d'.val; omega
theorem ld_slab1 (x0 : Vec Ideal S4x1024x512 .f32) (t' : Fin 1024) (d' : Fin 512) :
    View.ld x0 (ldB 1) (ix3 (0 : Fin 1) t' d') = x0 (ix3 (1 : Fin 4) t' d') := by
  refine congrArg x0 (funext fun a => Fin.ext ?_)
  match a with
  | ⟨0, _⟩ => rfl
  | ⟨1, _⟩ => show 0 + 1 * t'.val = t'.val; omega
  | ⟨2, _⟩ => show 0 + 1 * d'.val = d'.val; omega
theorem ld_slab2 (x0 : Vec Ideal S4x1024x512 .f32) (t' : Fin 1024) (d' : Fin 512) :
    View.ld x0 (ldB 2) (ix3 (0 : Fin 1) t' d') = x0 (ix3 (2 : Fin 4) t' d') := by
  refine congrArg x0 (funext fun a => Fin.ext ?_)
  match a with
  | ⟨0, _⟩ => rfl
  | ⟨1, _⟩ => show 0 + 1 * t'.val = t'.val; omega
  | ⟨2, _⟩ => show 0 + 1 * d'.val = d'.val; omega
theorem ld_slab3 (x0 : Vec Ideal S4x1024x512 .f32) (t' : Fin 1024) (d' : Fin 512) :
    View.ld x0 (ldB 3) (ix3 (0 : Fin 1) t' d') = x0 (ix3 (3 : Fin 4) t' d') := by
  refine congrArg x0 (funext fun a => Fin.ext ?_)
  match a with
  | ⟨0, _⟩ => rfl
  | ⟨1, _⟩ => show 0 + 1 * t'.val = t'.val; omega
  | ⟨2, _⟩ => show 0 + 1 * d'.val = d'.val; omega

/-- Slab `i` of the output block, at cluster `k` and coordinate `d`, sits at batch `i` of the block. -/
theorem stB_emb0 (k : Fin 64) (d : Fin 512) : (stB 0).emb (ix3 (0 : Fin 1) k d) = ix3 (0 : Fin 4) k d := by
  refine funext fun a => Fin.ext ?_
  match a with
  | ⟨0, _⟩ => rfl
  | ⟨1, _⟩ => show 0 + 1 * k.val = k.val; omega
  | ⟨2, _⟩ => show 0 + 1 * d.val = d.val; omega
theorem stB_emb1 (k : Fin 64) (d : Fin 512) : (stB 1).emb (ix3 (0 : Fin 1) k d) = ix3 (1 : Fin 4) k d := by
  refine funext fun a => Fin.ext ?_
  match a with
  | ⟨0, _⟩ => rfl
  | ⟨1, _⟩ => show 0 + 1 * k.val = k.val; omega
  | ⟨2, _⟩ => show 0 + 1 * d.val = d.val; omega
theorem stB_emb2 (k : Fin 64) (d : Fin 512) : (stB 2).emb (ix3 (0 : Fin 1) k d) = ix3 (2 : Fin 4) k d := by
  refine funext fun a => Fin.ext ?_
  match a with
  | ⟨0, _⟩ => rfl
  | ⟨1, _⟩ => show 0 + 1 * k.val = k.val; omega
  | ⟨2, _⟩ => show 0 + 1 * d.val = d.val; omega
theorem stB_emb3 (k : Fin 64) (d : Fin 512) : (stB 3).emb (ix3 (0 : Fin 1) k d) = ix3 (3 : Fin 4) k d := by
  refine funext fun a => Fin.ext ?_
  match a with
  | ⟨0, _⟩ => rfl
  | ⟨1, _⟩ => show 0 + 1 * k.val = k.val; omega
  | ⟨2, _⟩ => show 0 + 1 * d.val = d.val; omega

/-- A batch below `j` is not in slab `j`. -/
theorem not_mem_stB1 (i : Fin 4) (h : i.val < 1) (k : Fin 64) (d : Fin 512) : ix3 i k d ∉ (stB 1).set := by
  show ix3 i k d ∉ (Rect.unit (s := S4x64x512) ![1, 0, 0] S1x64x512.size inb_S4x64x512_S1x64x512_1_0_0).set
  rw [Rect.mem_set_unit]
  intro hm
  have h0 : (1 : ℕ) ≤ i.val := (hm 0).1
  omega
theorem not_mem_stB2 (i : Fin 4) (h : i.val < 2) (k : Fin 64) (d : Fin 512) : ix3 i k d ∉ (stB 2).set := by
  show ix3 i k d ∉ (Rect.unit (s := S4x64x512) ![2, 0, 0] S1x64x512.size inb_S4x64x512_S1x64x512_2_0_0).set
  rw [Rect.mem_set_unit]
  intro hm
  have h0 : (2 : ℕ) ≤ i.val := (hm 0).1
  omega
theorem not_mem_stB3 (i : Fin 4) (h : i.val < 3) (k : Fin 64) (d : Fin 512) : ix3 i k d ∉ (stB 3).set := by
  show ix3 i k d ∉ (Rect.unit (s := S4x64x512) ![3, 0, 0] S1x64x512.size inb_S4x64x512_S1x64x512_3_0_0).set
  rw [Rect.mem_set_unit]
  intro hm
  have h0 : (3 : ℕ) ≤ i.val := (hm 0).1
  omega

/-- The output block at batch `i` is what the body stored for batch `i`: the later stores are other batches. -/
theorem out0_4_at3 (k : Fin 64) (d : Fin 512) :
    out0_4 x0 x1 x2 x3 (ix3 (3 : Fin 4) k d) = slab3 x0 x1 x2 x3 (ix3 (0 : Fin 1) k d) := by
  unfold out0_4
  rw [← stB_emb3 k d]
  exact View.canon_cons_emb (Val := Elt Ideal) (e := .f32) (stB 3) (slab3 x0 x1 x2 x3) _ (ix3 (0 : Fin 1) k d)
theorem out0_4_at2 (k : Fin 64) (d : Fin 512) :
    out0_4 x0 x1 x2 x3 (ix3 (2 : Fin 4) k d) = slab2 x0 x1 x2 x3 (ix3 (0 : Fin 1) k d) := by
  unfold out0_4
  refine (View.canon_cons_of_not_mem (⟨stB 3, slab3 x0 x1 x2 x3⟩ : View.Piece (Elt Ideal) S4x64x512 .f32) _ (not_mem_stB3 2 (by decide) k d)).trans ?_
  rw [← stB_emb2 k d]
  exact View.canon_cons_emb (Val := Elt Ideal) (e := .f32) (stB 2) (slab2 x0 x1 x2 x3) _ (ix3 (0 : Fin 1) k d)
theorem out0_4_at1 (k : Fin 64) (d : Fin 512) :
    out0_4 x0 x1 x2 x3 (ix3 (1 : Fin 4) k d) = slab1 x0 x1 x2 x3 (ix3 (0 : Fin 1) k d) := by
  unfold out0_4
  refine (View.canon_cons_of_not_mem (⟨stB 3, slab3 x0 x1 x2 x3⟩ : View.Piece (Elt Ideal) S4x64x512 .f32) _ (not_mem_stB3 1 (by decide) k d)).trans ?_
  refine (View.canon_cons_of_not_mem (⟨stB 2, slab2 x0 x1 x2 x3⟩ : View.Piece (Elt Ideal) S4x64x512 .f32) _ (not_mem_stB2 1 (by decide) k d)).trans ?_
  rw [← stB_emb1 k d]
  exact View.canon_cons_emb (Val := Elt Ideal) (e := .f32) (stB 1) (slab1 x0 x1 x2 x3) _ (ix3 (0 : Fin 1) k d)
theorem out0_4_at0 (k : Fin 64) (d : Fin 512) :
    out0_4 x0 x1 x2 x3 (ix3 (0 : Fin 4) k d) = slab0 x0 x1 x2 x3 (ix3 (0 : Fin 1) k d) := by
  unfold out0_4
  refine (View.canon_cons_of_not_mem (⟨stB 3, slab3 x0 x1 x2 x3⟩ : View.Piece (Elt Ideal) S4x64x512 .f32) _ (not_mem_stB3 0 (by decide) k d)).trans ?_
  refine (View.canon_cons_of_not_mem (⟨stB 2, slab2 x0 x1 x2 x3⟩ : View.Piece (Elt Ideal) S4x64x512 .f32) _ (not_mem_stB2 0 (by decide) k d)).trans ?_
  refine (View.canon_cons_of_not_mem (⟨stB 1, slab1 x0 x1 x2 x3⟩ : View.Piece (Elt Ideal) S4x64x512 .f32) _ (not_mem_stB1 0 (by decide) k d)).trans ?_
  rw [← stB_emb0 k d]
  exact View.canon_cons_emb (Val := Elt Ideal) (e := .f32) (stB 0) (slab0 x0 x1 x2 x3) _ (ix3 (0 : Fin 1) k d)

/-- The output block at batch `i`, cluster `k`, coordinate `d` is the descriptor of the block's batch `i`. -/
theorem out0_4_apply (i : Fin 4) (k : Fin 64) (d : Fin 512) :
    out0_4 x0 x1 x2 x3 (ix3 i k d)
      = Cert.Spec.vladB (fun t' d' => x0 (ix3 i t' d')) x1 (fun j => x2 (ix2 (0 : Fin 1) (j 0))) x3 k d := by
  match i with
  | 0 =>
    refine (out0_4_at0 x0 x1 x2 x3 k d).trans ?_
    unfold slab0
    refine (slabB0_apply x1 x2 x3 (View.ld x0 (ldB 0)) k d).trans ?_
    exact congrArg (fun f => Cert.Spec.vladB f x1 (fun j => x2 (ix2 (0 : Fin 1) (j 0))) x3 k d)
      (funext fun t' => funext fun d' => ld_slab0 x0 t' d')
  | 1 =>
    refine (out0_4_at1 x0 x1 x2 x3 k d).trans ?_
    unfold slab1
    refine (slabB1_apply x1 x2 x3 (View.ld x0 (ldB 1)) k d).trans ?_
    exact congrArg (fun f => Cert.Spec.vladB f x1 (fun j => x2 (ix2 (0 : Fin 1) (j 0))) x3 k d)
      (funext fun t' => funext fun d' => ld_slab1 x0 t' d')
  | 2 =>
    refine (out0_4_at2 x0 x1 x2 x3 k d).trans ?_
    unfold slab2
    refine (slabB2_apply x1 x2 x3 (View.ld x0 (ldB 2)) k d).trans ?_
    exact congrArg (fun f => Cert.Spec.vladB f x1 (fun j => x2 (ix2 (0 : Fin 1) (j 0))) x3 k d)
      (funext fun t' => funext fun d' => ld_slab2 x0 t' d')
  | 3 =>
    refine (out0_4_at3 x0 x1 x2 x3 k d).trans ?_
    unfold slab3
    refine (slabB3_apply x1 x2 x3 (View.ld x0 (ldB 3)) k d).trans ?_
    exact congrArg (fun f => Cert.Spec.vladB f x1 (fun j => x2 (ix2 (0 : Fin 1) (j 0))) x3 k d)
      (funext fun t' => funext fun d' => ld_slab3 x0 t' d')

end Cert.KernelIdeal.Hand

end
-- ==== Proof.KIValue0.lean ====
/-
  The first kernel region's output array after its eight points is the specification's descriptor of every batch:
  at batch b, cluster k, coordinate d the residual of batch b's descriptors against the centers, scaled to unit
  length per cluster and then as a whole. Each point writes back its block of that one function (its four batches
  read off the arrays the region finds), and the eight blocks cover the array.
-/
import proofs.«181341_j65197603553867_2_alg».proof.Proof.KIValue0Blocks
import proofs.«181341_j65197603553867_2_alg».proof.Proof.KIValue0Out
import proofs.«181341_j65197603553867_2_alg».proof.Proof.Spec

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The first region's output as one function of the arrays the region finds: at batch `b`, cluster `k` and
    coordinate `d` the doubly normalized residual of batch `b`'s descriptors. -/
def G0 (c : Dev nD) : S32x64x512.Idx → EReal := fun i =>
  Cert.Spec.vlad (V c main_arg0) (V c main_arg1) (fun j => (V c main_v0 : S1x64.Idx → EReal) (ix2 (0 : Fin 1) (j 0)))
    (V c main_arg3) (i 0) (i 1) (i 2)

/-- What point `t` writes back is its block of the whole-array function. -/
theorem flushed0_4_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  refine cut_read t (out0_4 (iblk0 V c 0 t) (iblk0 V c 1 t) (iblk0 V c 2 t) (iblk0 V c 3 t)) (G0 V c) (fun i k d b hb => ?_)
  refine (out0_4_apply (iblk0 V c 0 t) (iblk0 V c 1 t) (iblk0 V c 2 t) (iblk0 V c 3 t) i k d).trans ?_
  have e0 : (fun t' d' => (iblk0 V c 0 t : Vec Ideal S4x1024x512 .f32) (ix3 i t' d'))
      = (fun t' d' => (V c main_arg0 : S32x1024x512.Idx → EReal) (ix3 b t' d')) :=
    funext fun t' => funext fun d' => iblk0_0_apply V c t i t' d' b hb
  show Cert.Spec.vladB (fun t' d' => (iblk0 V c 0 t : Vec Ideal S4x1024x512 .f32) (ix3 i t' d')) (iblk0 V c 1 t)
        (fun j => (iblk0 V c 2 t : Vec Ideal S1x64 .f32) (ix2 (0 : Fin 1) (j 0))) (iblk0 V c 3 t) k d
      = Cert.Spec.vladB (fun t' d' => (V c main_arg0 : S32x1024x512.Idx → EReal) (ix3 b t' d')) (V c main_arg1)
        (fun j => (V c main_v0 : S1x64.Idx → EReal) (ix2 (0 : Fin 1) (j 0))) (V c main_arg3) k d
  rw [e0, iblk0_1_eq V c t, iblk0_2_eq V c t, iblk0_3_eq V c t]

/-- After the eight points the first region's output array is the whole-array function. -/
theorem arr0_eq (c : Dev nD) : (dat0 V c).arrAt 4 cfg0.N = G0 V c :=
  (dat0 V c).arrAt_eq_of_cover 4 (G0 V c) (fun t _ => flushed0_4_eq V c t) cover0_arr

/-- The first region's output array at batch `b`, cluster `k`, coordinate `d` is the specification's descriptor. -/
theorem arr0_apply (c : Dev nD) (b : Fin 32) (k : Fin 64) (d : Fin 512) :
    (dat0 (F := Ideal) V c).arrAt 4 cfg0.N (ix3 b k d)
      = Cert.Spec.vlad (V c main_arg0) (V c main_arg1) (fun j => (V c main_v0 : S1x64.Idx → EReal) (ix2 (0 : Fin 1) (j 0)))
          (V c main_arg3) b k d :=
  congrFun (arr0_eq V c) (ix3 b k d)

end Cert.KernelIdeal.Hand

end
-- ==== Proof.KIValue1Pay.lean ====
/-
  The arithmetic of the projection's body at one entry, at the ideal instance.

  The body's first store (taken at the first contraction block of an output column block) writes the zero
  matrix. Its second store writes, at row `p` and column `q` of the [32, 512] accumulator, the old entry plus the
  inner product of row `p` of the [32, 4096] left block with column `q` of the [4096, 512] right block.
-/
import proofs.«181341_j65197603553867_2_alg».proof.Proof.Gen.KernelIdeal.Skeleton
import proofs.«181341_j65197603553867_2_alg».proof.Proof.LibMatmulRead
import Idealize.ShloMosaic.Lib.Pipeline.Value
import Idealize.ShloMosaic.Lib.ValueIdx

noncomputable section

open scoped BigOperators

namespace Cert.KernelIdeal.Hand

open Idealize.ShloMosaic Idealize.ShloMosaic.ValueIdx
open Cert.KernelIdeal Cert.KernelIdeal.Gen

/-- The reset value of the accumulator is zero at every entry. -/
theorem k1_pay1_apply (p : Fin 32) (q : Fin 512) :
    (k1_pay1 (F := Ideal) : S32x512.Idx → EReal) (ix2 p q) = 0 := by
  unfold k1_pay1
  refine (congrFun (shapeCast_self _ _) (ix2 p q)).trans ?_
  exact Ideal.ofBits_zero_f32

/-- One accumulation step at an entry: the old entry plus the inner product over the 4096 contraction
    coordinates of the point's two blocks. -/
theorem k1_pay2_apply (x0 : Vec Ideal S32x4096 .f32) (x1 : Vec Ideal S4096x512 .f32) (a : Vec Ideal S32x512 .f32)
    (p : Fin 32) (q : Fin 512) :
    (k1_pay2 (F := Ideal) x0 x1 a : S32x512.Idx → EReal) (ix2 p q)
      = a (ix2 p q) + ∑ j : Fin 4096, x0 (ix2 p j) * x1 (ix2 j q) := by
  unfold k1_pay2
  refine (congrFun (shapeCast_self _ _) (ix2 p q)).trans ?_
  refine (addf_apply _ _ (ix2 p q)).trans ?_
  refine congrArg (a (ix2 p q) + ·) ?_
  refine (matmul_ix2_apply dot_S32x4096_S4096x512_S32x512_1_0_0_1_n_n rfl rfl rfl rfl rfl rfl (some .fp32) _ x1 p q).trans ?_
  refine Finset.sum_congr rfl fun j _ => ?_
  exact congrArg (· * x1 (ix2 j q)) (congrFun (shapeCast_self x0 _) (ix2 p j))

end Cert.KernelIdeal.Hand

end
-- ==== Proof.KIValue1Blk.lean ====
/-
  The blocks of the projection's three windows as parts of their arrays, at any float instance.

  The grid has 16 points; point `t` works on contraction block `t % 8` of output column block `t / 8`.
  The left operand's block at `t` is columns `4096 * (t % 8) …` of the [32, 32768] array; the right operand's block
  is rows `4096 * (t % 8) …` and columns `512 * (t / 8) …` of the [32768, 1024] array; the output's block is columns
  `512 * (t / 8) …` of the [32, 1024] array. An element of a block sits in its array, on each axis, at the block
  index times the block's extent plus its coordinate inside the block.
-/
import proofs.«181341_j65197603553867_2_alg».proof.Proof.KIRegion1Defs
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

/-- The three index maps at every grid point: the contraction block is `t % 8`, the column block `t / 8`. -/
theorem idx_facts1 : ∀ t : Fin cfg1.N,
    win1_0.index t (0 : Fin 2) = 0 ∧ win1_0.index t (1 : Fin 2) = t.val % 8
    ∧ win1_1.index t (0 : Fin 2) = t.val % 8 ∧ win1_1.index t (1 : Fin 2) = t.val / 8
    ∧ win1_2.index t (0 : Fin 2) = 0 ∧ win1_2.index t (1 : Fin 2) = t.val / 8 :=
  (by decide +kernel : ∀ t : Fin grid1.N, _)

section Blocks
variable (V : (c : Dev nD) → (b : Ref sig .tc) → Buf (Elt F) ((c : Thread nD τ).loc b))

/-- The left operand's block at point `t`, at row `p` and column `j`, is the array at row `p` and column
    `4096 * (t % 8) + j`. -/
theorem iblk1_0_apply (c : Dev nD) (t : Fin cfg1.N) (p : Fin 32) (j : Fin 4096) (n : Fin 32768)
    (hn : n.val = 4096 * (t.val % 8) + j.val) :
    (iblk1 V c 0 t : Vec F S32x4096 .f32) (ix2 p j) = (V c main_v2 : S32x32768.Idx → Elt F .f32) (ix2 p n) := by
  obtain ⟨e0, e1, -⟩ := idx_facts1 t
  unfold iblk1
  rw [View.read_apply]
  show V c main_v2 (((cfg1.win 0).blk t).view.emb (ix2 p j)) = V c main_v2 (ix2 p n)
  refine congrArg (V c main_v2) (funext fun a => Fin.ext ?_)
  match a with
  | ⟨0, _⟩ => show win1_0.index t (0 : Fin 2) * 32 + 1 * p.val = p.val; rw [e0]; omega
  | ⟨1, _⟩ => show win1_0.index t (1 : Fin 2) * 4096 + 1 * j.val = n.val; rw [e1, hn]; omega

/-- The right operand's block at point `t`, at row `j` and column `q`, is the array at row
    `4096 * (t % 8) + j` and column `512 * (t / 8) + q`. -/
theorem iblk1_1_apply (c : Dev nD) (t : Fin cfg1.N) (j : Fin 4096) (q : Fin 512) (n : Fin 32768) (o : Fin 1024)
    (hn : n.val = 4096 * (t.val % 8) + j.val) (ho : o.val = 512 * (t.val / 8) + q.val) :
    (iblk1 V c 1 t : Vec F S4096x512 .f32) (ix2 j q) = (V c main_arg4 : S32768x1024.Idx → Elt F .f32) (ix2 n o) := by
  obtain ⟨-, -, e2, e3, -⟩ := idx_facts1 t
  unfold iblk1
  rw [View.read_apply]
  show V c main_arg4 (((cfg1.win 1).blk t).view.emb (ix2 j q)) = V c main_arg4 (ix2 n o)
  refine congrArg (V c main_arg4) (funext fun a => Fin.ext ?_)
  match a with
  | ⟨0, _⟩ => show win1_1.index t (0 : Fin 2) * 4096 + 1 * j.val = n.val; rw [e2, hn]; omega
  | ⟨1, _⟩ => show win1_1.index t (1 : Fin 2) * 512 + 1 * q.val = o.val; rw [e3, ho]; omega

/-- An element of the output's block at point `t`, at row `p` and column `q`, sits in the [32, 1024] array at row
    `p` and column `512 * (t / 8) + q`. -/
theorem oblk1_emb (t : Fin cfg1.N) (p : Fin 32) (q : Fin 512) (o : Fin 1024) (ho : o.val = 512 * (t.val / 8) + q.val) :
    (((cfg1.win 2).blk t).view.emb (ix2 p q) : S32x1024.Idx) = ix2 p o := by
  obtain ⟨-, -, -, -, e4, e5⟩ := idx_facts1 t
  refine funext fun a => Fin.ext ?_
  match a with
  | ⟨0, _⟩ => show win1_2.index t (0 : Fin 2) * 32 + 1 * p.val = p.val; rw [e4]; omega
  | ⟨1, _⟩ => show win1_2.index t (1 : Fin 2) * 512 + 1 * q.val = o.val; rw [e5, ho]; omega

/-- An index of the [32, 1024] array lies in the output's block at point `t` when its column is among the 512
    columns starting at `512 * (t / 8)`. -/
theorem mem_oblk1 (t : Fin cfg1.N) (i : S32x1024.Idx) (h : 512 * (t.val / 8) ≤ (i 1).val ∧ (i 1).val < 512 * (t.val / 8) + 512) :
    i ∈ ((cfg1.win 2).blk t).view.set := by
  obtain ⟨-, -, -, -, e4, e5⟩ := idx_facts1 t
  have hi0 : (i 0).val < 32 := (i 0).isLt
  show i ∈ ((View.whole main_v3).slice (win1_2.rect t)).set
  rw [View.set_slice_whole, Rect.mem_set_unit]
  intro a
  match a with
  | ⟨0, _⟩ =>
    show win1_2.index t (0 : Fin 2) * 32 ≤ (i 0).val ∧ (i 0).val < win1_2.index t (0 : Fin 2) * 32 + 32
    rw [e4]; omega
  | ⟨1, _⟩ =>
    show win1_2.index t (1 : Fin 2) * 512 ≤ (i 1).val ∧ (i 1).val < win1_2.index t (1 : Fin 2) * 512 + 512
    rw [e5]; omega

end Blocks

end Cert.KernelIdeal.Hand

end
-- ==== Proof.LibTileSums.lean ====
/-
  Finite sums over tiled index sets, in any commutative additive monoid (no distributivity, no cancellation):
  a sum over `Fin (n * b)` read as `n` blocks of `b` consecutive indices, the 8192 × 8192 square read as
  16 × 8 tiles of 512 × 1024, and a sparse 128 × 128 array whose only nonzero entries sit at rows divisible by 8
  of column 0.
-/
import Mathlib

open scoped BigOperators

namespace Cert.PairLoss.Sums

/-- The index `b * a + r` of entry `r` of block `a` lies below `n * b`. -/
theorem block_lt {n b : ℕ} (a : Fin n) (r : Fin b) : b * a.val + r.val < n * b := by
  have ha : a.val + 1 ≤ n := a.isLt
  have hr : r.val < b := r.isLt
  calc b * a.val + r.val < b * a.val + b := by omega
    _ = b * (a.val + 1) := by ring
    _ ≤ b * n := Nat.mul_le_mul_left b ha
    _ = n * b := Nat.mul_comm b n

/-- A sum over `Fin (n * b)` is the sum over the `n` blocks of the sum over the `b` entries of each block;
entry `r` of block `a` is the index `b * a + r`. -/
theorem sum_blocks {M : Type*} [AddCommMonoid M] {n b : ℕ} (g : Fin (n * b) → M) :
    ∑ a : Fin n, ∑ r : Fin b, g ⟨b * a.val + r.val, block_lt a r⟩ = ∑ i : Fin (n * b), g i := by
  rw [← Fintype.sum_prod_type' (f := fun (a : Fin n) (r : Fin b) => g ⟨b * a.val + r.val, block_lt a r⟩)]
  rw [← Equiv.sum_comp (finProdFinEquiv (m := n) (n := b)) g]
  refine Finset.sum_congr rfl ?_
  rintro ⟨a, r⟩ _
  congr 1
  apply Fin.ext
  simp [finProdFinEquiv, Nat.add_comm]

/-- The square `Fin 8192 × Fin 8192` summed tile by tile: 16 row tiles of 512 rows, 8 column tiles of 1024 columns,
with the column tiles innermost. -/
theorem sum_tiles {M : Type*} [AddCommMonoid M] (f : Fin 8192 → Fin 8192 → M) :
    ∑ a : Fin 16, ∑ r : Fin 512, ∑ q : Fin 1024, ∑ j : Fin 8,
        f ⟨512 * a.val + r.val, block_lt (n := 16) (b := 512) a r⟩
          ⟨1024 * j.val + q.val, block_lt (n := 8) (b := 1024) j q⟩
      = ∑ i : Fin 8192, ∑ j : Fin 8192, f i j := by
  have hcols : ∀ i : Fin 8192,
      ∑ q : Fin 1024, ∑ j : Fin 8, f i ⟨1024 * j.val + q.val, block_lt (n := 8) (b := 1024) j q⟩
        = ∑ j : Fin 8192, f i j := by
    intro i
    rw [Finset.sum_comm]
    exact sum_blocks (n := 8) (b := 1024) (fun j => f i j)
  simp only [hcols]
  exact sum_blocks (n := 16) (b := 512) (fun i => ∑ j : Fin 8192, f i j)

/-- A 128 × 128 array that carries `g a` at row `8 * a` of column 0 and zero everywhere else sums to `∑ a, g a`. -/
theorem sum_sparse {M : Type*} [AddCommMonoid M] (g : Fin 16 → M) :
    ∑ r : Fin 128, ∑ c : Fin 128,
        (if r.val % 8 = 0 ∧ c.val = 0 then g ⟨r.val / 8, by have := r.isLt; omega⟩ else 0)
      = ∑ a : Fin 16, g a := by
  have hrow : ∀ r : Fin 128,
      ∑ c : Fin 128, (if r.val % 8 = 0 ∧ c.val = 0 then g ⟨r.val / 8, by have := r.isLt; omega⟩ else 0)
        = if r.val % 8 = 0 then g ⟨r.val / 8, by have := r.isLt; omega⟩ else 0 := by
    intro r
    rw [Finset.sum_eq_single (0 : Fin 128)]
    · simp
    · intro c _ hc
      have : c.val ≠ 0 := fun h => hc (Fin.ext h)
      simp [this]
    · intro h; exact absurd (Finset.mem_univ _) h
  simp only [hrow]
  rw [← sum_blocks (n := 16) (b := 8)
    (fun r : Fin (16 * 8) => if r.val % 8 = 0 then g ⟨r.val / 8, by have := r.isLt; omega⟩ else 0)]
  refine Finset.sum_congr rfl ?_
  intro a _
  rw [Finset.sum_eq_single (0 : Fin 8)]
  · have h1 : (8 * a.val + (0 : Fin 8).val) % 8 = 0 := by simp
    have h2 : (8 * a.val + (0 : Fin 8).val) / 8 = a.val := by simp
    simp only [h1, if_true]
    congr 1
    exact Fin.ext h2
  · intro s _ hs
    have hs0 : s.val ≠ 0 := fun h => hs (Fin.ext h)
    have : ¬ ((8 * a.val + s.val) % 8 = 0) := by have := s.isLt; omega
    exact if_neg this
  · intro h; exact absurd (Finset.mem_univ _) h

end Cert.PairLoss.Sums
-- ==== Proof.KIValue1Acc.lean ====
/-
  The accumulator of the projection, at the ideal instance, as a partial sum of the matrix product.

  Write `X` for the [32, 32768] left array and `W` for the [32768, 1024] right array as the region finds them.
  At the point working on contraction block `k` of output column block `a` the accumulator holds, at row `p` and
  column `q`, the sum over the contraction blocks `0 … k` of the inner products
  `∑ j < 4096, X (p, 4096 * kb + j) * W (4096 * kb + j, 512 * a + q)`:
  the first point of a column block adds its inner product to zero, every later one to what the point before left.
  Only associativity of addition on the extended reals is used. After the last contraction block the eight
  partial inner products are one sum over all 32768 contraction coordinates.
-/
import proofs.«181341_j65197603553867_2_alg».proof.Proof.KIValue1Pay
import proofs.«181341_j65197603553867_2_alg».proof.Proof.KIValue1Blk
import proofs.«181341_j65197603553867_2_alg».proof.Proof.LibTileSums

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The left array as the region finds it, as a function into the extended reals. -/
abbrev lhs1 (c : Dev nD) : S32x32768.Idx → EReal := V c main_v2

/-- The right array as the region finds it, as a function into the extended reals. -/
abbrev rhs1 (c : Dev nD) : S32768x1024.Idx → EReal := V c main_arg4

/-- Entry `(b, o)` of the product of the two arrays the region finds: the sum over all 32768 contraction coordinates. -/
def prod1 (c : Dev nD) (b : Fin 32) (o : Fin 1024) : EReal :=
  ∑ j : Fin 32768, lhs1 V c (ix2 b j) * rhs1 V c (ix2 j o)

theorem kb_lt (kb : Fin 8) (j : Fin 4096) : 4096 * kb.val + j.val < 32768 := by
  have := kb.isLt; have := j.isLt; omega

theorem col_lt (a : Fin 2) (q : Fin 512) : 512 * a.val + q.val < 1024 := by
  have := a.isLt; have := q.isLt; omega

/-- The inner product over contraction block `kb` for row `p` and column `q` of output column block `a`. -/
def part1 (c : Dev nD) (a : Fin 2) (p : Fin 32) (q : Fin 512) (kb : Fin 8) : EReal :=
  ∑ j : Fin 4096, lhs1 V c (ix2 p ⟨4096 * kb.val + j.val, kb_lt kb j⟩)
    * rhs1 V c (ix2 ⟨4096 * kb.val + j.val, kb_lt kb j⟩ ⟨512 * a.val + q.val, col_lt a q⟩)

/-- One accumulation step at the point working on contraction block `kb` of column block `a`: the old entry plus
    that block's inner product. -/
theorem step1 (c : Dev nD) (t : Fin cfg1.N) (a : Fin 2) (kb : Fin 8) (ht : t.val = 8 * a.val + kb.val)
    (A : Vec Ideal S32x512 .f32) (p : Fin 32) (q : Fin 512) :
    (k1_pay2 (F := Ideal) (iblk1 V c 0 t) (iblk1 V c 1 t) A : S32x512.Idx → EReal) (ix2 p q)
      = A (ix2 p q) + part1 V c a p q kb := by
  have ha := a.isLt
  have hkb := kb.isLt
  refine (k1_pay2_apply (iblk1 V c 0 t) (iblk1 V c 1 t) A p q).trans ?_
  refine congrArg (A (ix2 p q) + ·) ?_
  refine Finset.sum_congr rfl fun j _ => ?_
  refine congrArg₂ (· * ·) ?_ ?_
  · exact iblk1_0_apply V c t p j ⟨4096 * kb.val + j.val, kb_lt kb j⟩ (by show 4096 * kb.val + j.val = _; omega)
  · exact iblk1_1_apply V c t j q ⟨4096 * kb.val + j.val, kb_lt kb j⟩ ⟨512 * a.val + q.val, col_lt a q⟩
      (by show 4096 * kb.val + j.val = _; omega) (by show 512 * a.val + q.val = _; omega)

/-- The recurrence of the accumulator at a point that is not the first of its column block, with the point before
    named by its own position. -/
theorem acc1_succ (c : Dev nD) (n : ℕ) (h : n + 1 < cfg1.N) (hne : ¬ (n + 1) % 8 = 0) :
    acc1 V c (n + 1) h = k1_pay2 (iblk1 V c 0 ⟨n + 1, h⟩) (iblk1 V c 1 ⟨n + 1, h⟩) (acc1 V c n (Nat.lt_of_succ_lt h)) :=
  acc1_next V c ⟨n + 1, h⟩ hne

/-- THE PARTIAL SUMS. After the point at contraction block `k` of column block `a` the accumulator's entry
    `(p, q)` is the sum of the inner products of contraction blocks `0 … k`. -/
theorem acc1_partial (c : Dev nD) (a : Fin 2) (p : Fin 32) (q : Fin 512) :
    ∀ (k : ℕ) (hk : k < 8) (h : 8 * a.val + k < cfg1.N),
      (acc1 V c (8 * a.val + k) h : S32x512.Idx → EReal) (ix2 p q)
        = ∑ kb : Fin (k + 1), part1 V c a p q (Fin.castLE (Nat.succ_le_of_lt hk) kb)
  | 0, hk, h => by
    have e : acc1 V c (8 * a.val + 0) h
        = k1_pay2 (iblk1 V c 0 ⟨8 * a.val + 0, h⟩) (iblk1 V c 1 ⟨8 * a.val + 0, h⟩) (k1_pay1 (F := Ideal)) :=
      acc1_first V c ⟨8 * a.val + 0, h⟩ (by show (8 * a.val + 0) % 8 = 0; omega)
    refine (congrFun e (ix2 p q)).trans ?_
    refine (step1 V c ⟨8 * a.val + 0, h⟩ a ⟨0, hk⟩ rfl (k1_pay1 (F := Ideal)) p q).trans ?_
    rw [k1_pay1_apply, zero_add, Fin.sum_univ_one]
    rfl
  | k + 1, hk, h => by
    have e := acc1_succ V c (8 * a.val + k) h (by omega)
    refine (congrFun e (ix2 p q)).trans ?_
    refine (step1 V c ⟨8 * a.val + (k + 1), h⟩ a ⟨k + 1, hk⟩ rfl (acc1 V c (8 * a.val + k) (Nat.lt_of_succ_lt h)) p q).trans ?_
    rw [acc1_partial c a p q k (Nat.lt_of_succ_lt hk) (Nat.lt_of_succ_lt h)]
    exact (Fin.sum_univ_castSucc
      (fun kb : Fin (k + 1 + 1) => part1 V c a p q (Fin.castLE (Nat.succ_le_of_lt hk) kb))).symm

/-- The eight inner products of 4096 coordinates each are one sum over the 32768 contraction coordinates. -/
theorem part1_sum (c : Dev nD) (a : Fin 2) (p : Fin 32) (q : Fin 512) :
    ∑ kb : Fin 8, part1 V c a p q kb = prod1 V c p ⟨512 * a.val + q.val, col_lt a q⟩ :=
  Cert.PairLoss.Sums.sum_blocks (n := 8) (b := 4096)
    (fun n : Fin (8 * 4096) => lhs1 V c (ix2 p n) * rhs1 V c (ix2 n ⟨512 * a.val + q.val, col_lt a q⟩))

/-- The accumulator does not depend on how its position is written. -/
theorem acc1_congr (c : Dev nD) (n n' : ℕ) (h : n < cfg1.N) (h' : n' < cfg1.N) (e : n = n') :
    acc1 V c n h = acc1 V c n' h' := by
  subst e; rfl

/-- AT THE LAST CONTRACTION BLOCK of a column block the accumulator's entry `(p, q)` is the product's entry at row
    `p` and column `512 * (t / 8) + q`. -/
theorem acc1_last (c : Dev nD) (t : Fin cfg1.N) (h7 : t.val % 8 = 7) (p : Fin 32) (q : Fin 512) (o : Fin 1024)
    (ho : o.val = 512 * (t.val / 8) + q.val) :
    (acc1 V c t.val t.isLt : S32x512.Idx → EReal) (ix2 p q) = prod1 V c p o := by
  have hN : grid1.N = 16 := N_1
  have ht : t.val < 16 := lt_of_lt_of_eq t.isLt hN
  have hlt : 8 * (t.val / 8) + 7 < cfg1.N := by show _ < grid1.N; rw [hN]; omega
  have e := acc1_congr V c t.val (8 * (t.val / 8) + 7) t.isLt hlt (by omega)
  refine (congrFun e (ix2 p q)).trans ?_
  refine (acc1_partial V c ⟨t.val / 8, by omega⟩ p q 7 (by omega) hlt).trans ?_
  refine (part1_sum V c ⟨t.val / 8, by omega⟩ p q).trans ?_
  exact congrArg (prod1 V c p) (Fin.ext ho.symm)

end Cert.KernelIdeal.Hand

end
-- ==== Proof.KIValue1.lean ====
/-
  The projection's output array after the region is the whole matrix product, at the ideal instance.

  The output's block is written back only after the last contraction block of a column block, and then it holds
  that column block of the product of the two arrays the region finds. The two write-backs (output columns
  0 … 511 and 512 … 1023) cover the [32, 1024] array, so the array ends holding, at row `b` and column `o`,
  the sum over all 32768 contraction coordinates `j` of the left array at `(b, j)` times the right array at
  `(j, o)`.
-/
import proofs.«181341_j65197603553867_2_alg».proof.Proof.KIValue1Acc

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The whole product as one function of the output array's index. -/
def G1 (c : Dev nD) : S32x1024.Idx → EReal := fun i => prod1 V c (i 0) (i 1)

/-- Reading the output's block at point `t` off a whole-array function: entry `y` of the block is the function at
    the place of `y` in the array. -/
theorem oblk1_read (t : Fin cfg1.N) (f : S32x1024.Idx → EReal) (y : S32x512.Idx) :
    ((cfg1.win 2).blk t).view.read (Elt Ideal) f y = f (((cfg1.win 2).blk t).view.emb y) := rfl

/-- WHAT A WRITE-BACK WRITES: at a point that writes the output's block back, the block is that block of the
    whole product. -/
theorem flushed1_eq (c : Dev nD) (t : Fin cfg1.N) (hf : (cfg1.win 2).flush t = true) :
    (dat1 (F := Ideal) V c).flushed 2 t = ((cfg1.win 2).blk t).view.read (Elt Ideal) (G1 V c) := by
  have h7 : t.val % 8 = 7 := (flush1_2 t).mp hf
  have hN : grid1.N = 16 := N_1
  have ht : t.val < 16 := lt_of_lt_of_eq t.isLt hN
  show (cfg1.win 2).cut (grid1.coords t) ((dat1 (F := Ideal) V c).after 2 t) = _
  rw [after1_2]
  refine funext fun (y : S32x512.Idx) => ?_
  obtain ⟨p, q, rfl⟩ : ∃ (p : Fin 32) (q : Fin 512), y = ix2 p q := ⟨y 0, y 1, eq_ix2 y⟩
  have hq := q.isLt
  refine Eq.trans ?_ (oblk1_read t (G1 V c) (ix2 p q)).symm
  rw [oblk1_emb t p q ⟨512 * (t.val / 8) + q.val, by omega⟩ rfl]
  show (acc1 V c t.val t.isLt : S32x512.Idx → EReal) (ix2 p q) = _
  exact acc1_last V c t h7 p q ⟨512 * (t.val / 8) + q.val, by omega⟩ rfl

/-- THE COVER: column `o` of the output array lies in the block written back after the last contraction block of
    column block `o / 512`. -/
theorem cover1 (i : S32x1024.Idx) :
    ∃ t : Fin cfg1.N, (cfg1.win 2).flush t = true ∧ i ∈ ((cfg1.win 2).blk t).view.set := by
  have hN : grid1.N = 16 := N_1
  have hi1 : (i 1).val < 1024 := (i 1).isLt
  have hlt : 8 * ((i 1).val / 512) + 7 < cfg1.N := by show _ < grid1.N; rw [hN]; omega
  refine ⟨⟨8 * ((i 1).val / 512) + 7, hlt⟩, (flush1_2 _).mpr (by show (8 * ((i 1).val / 512) + 7) % 8 = 7; omega), ?_⟩
  refine mem_oblk1 _ i ?_
  show 512 * ((8 * ((i 1).val / 512) + 7) / 8) ≤ (i 1).val ∧ (i 1).val < 512 * ((8 * ((i 1).val / 512) + 7) / 8) + 512
  omega

/-- The output array after the region is the whole product. -/
theorem arr1_eq (c : Dev nD) : (dat1 (F := Ideal) V c).arrAt 2 cfg1.N = G1 V c :=
  (dat1 (F := Ideal) V c).arrAt_eq_of_cover 2 (G1 V c) (fun t hf => flushed1_eq V c t hf) cover1

/-- THE VALUE OF THE SECOND REGION: entry `(b, o)` of its output array is the sum over the 32768 contraction
    coordinates of the left array's entry `(b, j)` times the right array's entry `(j, o)`. -/
theorem arr1_apply (c : Dev nD) (b : Fin 32) (o : Fin 1024) :
    ((dat1 (F := Ideal) V c).arrAt 2 cfg1.N : S32x1024.Idx → EReal) (ix2 b o)
      = ∑ j : Fin 32768, lhs1 V c (ix2 b j) * rhs1 V c (ix2 j o) := by
  rw [arr1_eq]
  rfl

/-- The same with the two arrays the region finds named: when the left array is `X` and the right array is `W`,
    entry `(b, o)` of the output array is `∑ j, X (b, j) * W (j, o)`. -/
theorem arr1_apply_of (c : Dev nD) (X : S32x32768.Idx → EReal) (W : S32768x1024.Idx → EReal)
    (hX : V c main_v2 = X) (hW : V c main_arg4 = W) (b : Fin 32) (o : Fin 1024) :
    ((dat1 (F := Ideal) V c).arrAt 2 cfg1.N : S32x1024.Idx → EReal) (ix2 b o)
      = ∑ j : Fin 32768, X (ix2 b j) * W (ix2 j o) := by
  subst hX hW
  exact arr1_apply V c b o

end Cert.KernelIdeal.Hand

end
-- ==== Proof.KIBridge.lean ====
/-
  The idealized program's run ends with the result buffer at the specification.

  The result array is the second region's output: entry (b, o) is the sum over the 32768 contraction coordinates j
  of the flattened descriptors at (b, j) times the projection at (j, o). The flattened descriptors are the first
  region's output array [32, 64, 512] reshaped row-major to [32, 32768], so entry (b, j) is that array's entry
  (b, j / 512, j % 512), which is the batch's descriptor of the specification at the arrays the first region finds:
  the four arguments as launched, the bias as a row [1, 64] whose entry (0, k) is the bias argument's entry k.
-/
import proofs.«181341_j65197603553867_2_alg».proof.Proof.KIRun
import proofs.«181341_j65197603553867_2_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- A buffer of floats at the ideal instance, read as a function into the extended reals. -/
abbrev rdE {S : Shape} (x : S.Idx → EReal) : S.Idx → EReal := x

variable (m : (ℓ : Loc nD τ sig) → Buf (Elt Ideal) ℓ) (ρ : Dev nD → PrngReg)

/-! ## What the first region finds -/

/-- The reshape of the bias writes none of the four arrays the first region stages besides the bias row. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    all_goals exact StableHlo.devRef_ne_of_ne (by decide)))).trans rfl
theorem V1_main_arg3 (c : Dev nD) : V1 m ρ c main_arg3 = m ((c : Thread nD τ).loc main_arg3) :=
  (StableHlo.after_of_forall_not_mem (b := Proc.devRef .tc main_arg3) _ _ (List.forall_iff_forall_mem.mp (by
    simp only [hostOps0, List.Forall, StableHlo.reshape_writes, Finset.mem_singleton]
    all_goals exact StableHlo.devRef_ne_of_ne (by decide)))).trans rfl

/-- The bias row the first region finds is the bias argument reshaped from [64] to [1, 64]. -/
theorem V1_main_v0 (c : Dev nD) :
    rdE (S := S1x64) (V1 m ρ c main_v0)
      = shapeCast S1x64 (rdE (S := S64) (m ((c : Thread nD τ).loc main_arg2))) shapeCasts_S64_S1x64 := by
  show StableHlo.after hostOps0 _ (Proc.devRef .tc main_v0) = _
  after_results
  rfl

/-- Its entry (0, k) is the bias argument's entry k. -/
theorem V1_main_v0_apply (c : Dev nD) (k : Fin 64) :
    rdE (S := S1x64) (V1 m ρ c main_v0) (ix2 (0 : Fin 1) k) = (rdE (S := S64) (m ((c : Thread nD τ).loc main_arg2))) (ix1 k) := by
  rw [V1_main_v0]
  refine shapeCast_apply _ _ (ix2 (0 : Fin 1) k) (ix1 k) ?_
  rw [Shape.rowMajor_val_one, Shape.rowMajor_val_two]
  show k.val = (0 : Fin 1).val * 64 + k.val
  simp

/-! ## What the second region finds -/

/-- Neither reshape nor the first region writes the projection. -/
theorem V3_main_arg4 (c : Dev nD) : V3 m ρ c main_arg4 = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          all_goals exact StableHlo.devRef_ne_of_ne (by decide)))
    _ = m ((c : Thread nD τ).loc main_arg4) := rfl

/-- The flattened descriptors the second region finds are the first region's output array reshaped from
    [32, 64, 512] to [32, 32768]. -/
theorem V3_main_v2 (c : Dev nD) :
    rdE (S := S32x32768) (V3 m ρ c main_v2)
      = shapeCast S32x32768 (rdE (S := S32x64x512) (W2 m ρ c (Proc.devRef .tc main_v1))) shapeCasts_S32x64x512_S32x32768 := by
  show StableHlo.after hostOps1 _ (Proc.devRef .tc main_v2) = _
  after_results
  rfl

/-- Entry (b, j) of the flattened descriptors is entry (b, j / 512, j % 512) of the first region's output array. -/
theorem V3_main_v2_apply (c : Dev nD) (b : Fin 32) (j : Fin 32768) :
    rdE (S := S32x32768) (V3 m ρ c main_v2) (ix2 b j)
      = rdE (S := S32x64x512) ((dat0 (F := Ideal) (V1 m ρ) c).arrAt 4 cfg0.N)
          (ix3 b (⟨j.val / 512, by have := j.isLt; omega⟩ : Fin 64) (⟨j.val % 512, Nat.mod_lt _ (by norm_num)⟩ : Fin 512)) := by
  rw [V3_main_v2, ← W2_arr m ρ c 4]
  refine shapeCast_apply _ _ (ix2 b j) (ix3 b (⟨j.val / 512, by have := j.isLt; omega⟩ : Fin 64) (⟨j.val % 512, Nat.mod_lt _ (by norm_num)⟩ : Fin 512)) ?_
  rw [Shape.rowMajor_val_two, Shape.rowMajor_val_three]
  show (b.val * 64 + j.val / 512) * 512 + j.val % 512 = b.val * 32768 + j.val
  omega

/-! ## The result at the specification -/

section Result

variable
  (harr0 : ∀ (V : (c : Dev nD) → (b : Ref sig .tc) → Buf (Elt Ideal) ((c : Thread nD τ).loc b)) (c : Dev nD) (b : Fin 32) (k : Fin 64) (d : Fin 512),
    rdE (S := S32x64x512) ((dat0 (F := Ideal) V c).arrAt 4 cfg0.N) (ix3 b k d)
      = Cert.Spec.vlad (V c main_arg0) (V c main_arg1) (fun j => rdE (S := S1x64) (V c main_v0) (ix2 (0 : Fin 1) (j 0))) (V c main_arg3) b k d)
  (harr1 : ∀ (V : (c : Dev nD) → (b : Ref sig .tc) → Buf (Elt Ideal) ((c : Thread nD τ).loc b)) (c : Dev nD) (b : Fin 32) (o : Fin 1024),
    rdE (S := S32x1024) ((dat1 (F := Ideal) V c).arrAt 2 cfg1.N) (ix2 b o)
      = ∑ j : Fin 32768, rdE (S := S32x32768) (V c main_v2) (ix2 b j) * rdE (S := S32768x1024) (V c main_arg4) (ix2 j o))

include harr0 in
/-- Entry (b, k, d) of the first region's output array is the specification's descriptor of batch b at the launched arguments. -/
theorem descr_apply (c : Dev nD) (b : Fin 32) (k : Fin 64) (d : Fin 512) :
    rdE (S := S32x64x512) ((dat0 (F := Ideal) (V1 m ρ) c).arrAt 4 cfg0.N) (ix3 b k d)
      = Cert.Spec.vlad (m ((c : Thread nD τ).loc main_arg0)) (m ((c : Thread nD τ).loc main_arg1)) (m ((c : Thread nD τ).loc main_arg2))
          (m ((c : Thread nD τ).loc main_arg3)) b k d := by
  rw [harr0 (V1 m ρ) c b k d, V1_main_arg0, V1_main_arg1, V1_main_arg3]
  have hb : (fun j : (⟨1, ![64]⟩ : Shape).Idx => rdE (S := S1x64) (V1 m ρ c main_v0) (ix2 (0 : Fin 1) (j 0)))
      = (rdE (S := S64) (m ((c : Thread nD τ).loc main_arg2))) := by
    funext j
    rw [V1_main_v0_apply m ρ c (j 0)]
    exact congrArg _ (eq_ix1 j).symm
  rw [hb]

include harr0 harr1 in
/-- Entry (b, o) of the result array is the specification's. -/
theorem result_apply (c : Dev nD) (b : Fin 32) (o : Fin 1024) :
    rdE (S := S32x1024) ((dat1 (F := Ideal) (V3 m ρ) c).arrAt 2 cfg1.N) (ix2 b o)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) b o := by
  rw [harr1 (V3 m ρ) c b o]
  unfold Cert.Spec.out
  refine Finset.sum_congr rfl fun j _ => ?_
  rw [V3_main_v2_apply m ρ c b j, descr_apply m ρ harr0 c b _ _, V3_main_arg4]
  rfl

include harr0 harr1 in
/-- THE RUN AT THE SPECIFICATION: every weakly fair execution terminates with the result buffer at the specification
    of the launched arguments, and the arguments as launched. -/
theorem kernel_run_of : θ_run (defs (F := Ideal)) (onTc (τ := τ) (main (F := Ideal))) ⟨m, fun _ => 0, ρ⟩ (fun r => ∀ c : Dev nD,
      r.2.mem ((c.tc : Thread nD τ).loc main_v3) = (fun i : S32x1024.Idx => Cert.Spec.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c _ (mem_uc main_v3 (by decide))).trans (W4_main_v3 m ρ c)).trans (funext fun i => by
        rw [eq_ix2 i]; exact result_apply m ρ harr0 harr1 c (i 0) (i 1)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Result

end Cert.KernelIdeal.Hand

end
-- ==== Proof.RefValueA.lean ====
/-
  The reference program read stage by stage, first part: for batch `b`, time step `t` and cluster `k` the
  program's logits, their row maximum, the shifted exponentials and the soft assignment are the specification's
  `logit`, `rowmax`, `ex` and `assign` of the batch's descriptors.
-/
import proofs.«181341_j65197603553867_2_alg».proof.Proof.Gen.ReferenceIdeal.Read
import proofs.«181341_j65197603553867_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S32x1024x512, .f32⟩ : BufTy).Contents (Elt Ideal)) (x1 : (⟨S512x64, .f32⟩ : BufTy).Contents (Elt Ideal))
  (x2 : (⟨S64, .f32⟩ : BufTy).Contents (Elt Ideal)) (x3 : (⟨S64x512, .f32⟩ : BufTy).Contents (Elt Ideal))
  (x4 : (⟨S32768x1024, .f32⟩ : BufTy).Contents (Elt Ideal))

/-- The logits: the contraction of the descriptors with the weights over the 512 coordinates, plus the bias. -/
theorem logit_at (b : Fin 32) (t : Fin 1024) (k : Fin 64) :
    val_main_v3 (F := Ideal) x0 x1 x2 (ix3 b t k) = Cert.Spec.logit (fun t d => x0 (ix3 b t d)) x1 x2 t k := by
  have el : ∀ d : Fin 512, lidx_main_v0 (ix3 b t k) d = ix3 b t d := fun d => funext fun a => Fin.ext (by
    match a with | ⟨0, _⟩ => rfl | ⟨1, _⟩ => rfl | ⟨2, _⟩ => rfl)
  have er : ∀ d : Fin 512, ridx_main_v0 (ix3 b t k) d = ix2 d k := fun d => funext fun a => Fin.ext (by
    match a with | ⟨0, _⟩ => rfl | ⟨1, _⟩ => rfl)
  have eb : idx_main_v1 (idx_main_v2 (ix3 b t k)) = ix1 k := funext fun a => Fin.ext (by
    match a with | ⟨0, _⟩ => rfl)
  rw [val_main_v3_apply, val_main_v0_apply, val_main_v2_apply, val_main_v1_apply]
  simp only [el, er, eb, Ideal.addf_def]
  rfl

/-- The row maximum: the fold of `max` over the 64 logits from −∞, and once more against −∞. -/
theorem rowmax_at (b : Fin 32) (t : Fin 1024) :
    val_main_v6 (F := Ideal) x0 x1 x2 (ix2 b t)
      = Cert.Spec.rowmax (Cert.Spec.logit (fun t d => x0 (ix3 b t d)) x1 x2 t) := by
  have hr : S32x1024x64.Reduces [2] S32x1024 := by decide
  have hl : ∀ k : Fin 64, hr.lift (ix2 b t) k = ix3 b t k := fun k => funext fun a => Fin.ext (by
    match a with | ⟨0, _⟩ => rfl | ⟨1, _⟩ => rfl | ⟨2, _⟩ => rfl)
  rw [val_main_v6_apply, val_main_v5_apply, val_main_cst_0_apply]
  unfold val_main_v4
  rw [Host.reduce_eq_fold_single FloatOps.maximumf _ _ reducesTo_S32x1024x64_S32x1024_d2 hr h_S_ (ix2 b t)]
  have hf : (val_main_v3 (F := Ideal) x0 x1 x2 ∘ hr.lift (ix2 b t))
      = Cert.Spec.logit (fun t d => x0 (ix3 b t d)) x1 x2 t := funext fun k => by
    show val_main_v3 (F := Ideal) x0 x1 x2 (hr.lift (ix2 b t) k) = _
    rw [hl k]
    exact logit_at x0 x1 x2 b t k
  rw [hf, val_main_cst_apply]
  rfl

/-- The shifted exponential of a logit. -/
theorem ex_at (b : Fin 32) (t : Fin 1024) (k : Fin 64) :
    val_main_v10 (F := Ideal) x0 x1 x2 (ix3 b t k) = Cert.Spec.ex (fun t d => x0 (ix3 b t d)) x1 x2 t k := by
  have e : idx_main_v7 (idx_main_v8 (ix3 b t k)) = ix2 b t := funext fun a => Fin.ext (by
    match a with | ⟨0, _⟩ => rfl | ⟨1, _⟩ => rfl)
  rw [val_main_v10_apply, val_main_v9_apply, val_main_v8_apply, val_main_v7_apply, e, logit_at, rowmax_at]
  simp only [Ideal.hostUnary_exp_def, Ideal.subf_def]
  rfl

/-- The soft assignment: the shifted exponential over the sum of the row's 64 shifted exponentials. -/
theorem assign_at (b : Fin 32) (t : Fin 1024) (k : Fin 64) :
    val_main_v14 (F := Ideal) x0 x1 x2 (ix3 b t k) = Cert.Spec.assign (fun t d => x0 (ix3 b t d)) x1 x2 t k := by
  have e : idx_main_v12 (idx_main_v13 (ix3 b t k)) = ix2 b t := funext fun a => Fin.ext (by
    match a with | ⟨0, _⟩ => rfl | ⟨1, _⟩ => rfl)
  have es : ∀ k' : Fin 64, idx_main_v11 (ix2 b t) k' = ix3 b t k' := fun k' => funext fun a => Fin.ext (by
    match a with | ⟨0, _⟩ => rfl | ⟨1, _⟩ => rfl | ⟨2, _⟩ => rfl)
  rw [val_main_v14_apply, val_main_v13_apply, val_main_v12_apply, e, val_main_v11_apply, val_main_cst_1_apply, ex_at]
  simp only [es, ex_at, Ideal.hostDivf_def, Ideal.ofBits_def, Ideal.ofBits_zero_f32, zero_add]
  rfl

end Cert.ReferenceIdeal.RefValue

end
-- ==== Proof.RefValueB.lean ====
/-
  The reference program read stage by stage, second part: for batch `b`, cluster `k` and coordinate `d` the
  program's residual and its per-cluster normalization are the specification's `resid` and `unit1`.
-/
import proofs.«181341_j65197603553867_2_alg».proof.Proof.RefValueA

noncomputable section

namespace Cert.ReferenceIdeal.RefValue

open Cert.ReferenceIdeal Cert.ReferenceIdeal.Gen Cert.ReferenceIdeal.Read Idealize.ShloMosaic Idealize.ShloMosaic.ValueIdx

variable (x0 : (⟨S32x1024x512, .f32⟩ : BufTy).Contents (Elt Ideal)) (x1 : (⟨S512x64, .f32⟩ : BufTy).Contents (Elt Ideal))
  (x2 : (⟨S64, .f32⟩ : BufTy).Contents (Elt Ideal)) (x3 : (⟨S64x512, .f32⟩ : BufTy).Contents (Elt Ideal))
  (x4 : (⟨S32768x1024, .f32⟩ : BufTy).Contents (Elt Ideal))

/-- The residual of a cluster: the assigned descriptors summed over time, less the assigned mass times the center. -/
theorem resid_at (b : Fin 32) (k : Fin 64) (d : Fin 512) :
    val_main_v22 (F := Ideal) x0 x1 x2 x3 (ix3 b k d)
      = Cert.Spec.resid (fun t d => x0 (ix3 b t d)) x1 x2 x3 k d := by
  have el : ∀ t : Fin 1024, lidx_main_v15 (ix3 b k d) t = ix3 b t k := fun t => funext fun a => Fin.ext (by
    match a with | ⟨0, _⟩ => rfl | ⟨1, _⟩ => rfl | ⟨2, _⟩ => rfl)
  have er : ∀ t : Fin 1024, ridx_main_v15 (ix3 b k d) t = ix3 b t d := fun t => funext fun a => Fin.ext (by
    match a with | ⟨0, _⟩ => rfl | ⟨1, _⟩ => rfl | ⟨2, _⟩ => rfl)
  have e17 : idx_main_v17 (idx_main_v19 (ix3 b k d)) = ix2 b k := funext fun a => Fin.ext (by
    match a with | ⟨0, _⟩ => rfl | ⟨1, _⟩ => rfl)
  have e16 : ∀ t : Fin 1024, idx_main_v16 (ix2 b k) t = ix3 b t k := fun t => funext fun a => Fin.ext (by
    match a with | ⟨0, _⟩ => rfl | ⟨1, _⟩ => rfl | ⟨2, _⟩ => rfl)
  have e18 : idx_main_v18 (idx_main_v20 (ix3 b k d)) = ix2 k d := funext fun a => Fin.ext (by
    match a with | ⟨0, _⟩ => rfl | ⟨1, _⟩ => rfl)
  rw [val_main_v22_apply, val_main_v15_apply, val_main_v21_apply, val_main_v19_apply, val_main_v17_apply, e17,
    val_main_v16_apply, val_main_cst_2_apply, val_main_v20_apply, val_main_v18_apply, e18]
  simp only [el, er, e16, assign_at, Ideal.subf_def, Ideal.mulf_def, Ideal.ofBits_def, Ideal.ofBits_zero_f32, zero_add]
  rfl

/-- Each cluster's residual scaled by the inverse root of its squared length over the 512 coordinates, floored at ε. -/
theorem unit1_at (b : Fin 32) (k : Fin 64) (d : Fin 512) :
    val_main_v30 (F := Ideal) x0 x1 x2 x3 (ix3 b k d)
      = Cert.Spec.unit1 (fun t d => x0 (ix3 b t d)) x1 x2 x3 k d := by
  have e25 : idx_main_v25 (idx_main_v29 (ix3 b k d)) = ix2 b k := funext fun a => Fin.ext (by
    match a with | ⟨0, _⟩ => rfl | ⟨1, _⟩ => rfl)
  have e24 : ∀ d' : Fin 512, idx_main_v24 (ix2 b k) d' = ix3 b k d' := fun d' => funext fun a => Fin.ext (by
    match a with | ⟨0, _⟩ => rfl | ⟨1, _⟩ => rfl | ⟨2, _⟩ => rfl)
  rw [val_main_v30_apply, val_main_v29_apply, val_main_v28_apply, val_main_v27_apply, val_main_v25_apply, e25,
    val_main_v24_apply, val_main_cst_3_apply, val_main_v26_apply, val_main_cst_4_apply, resid_at]
  simp only [e24, val_main_v23_apply, resid_at, Ideal.mulf_def, Ideal.maximumf_def, Ideal.hostUnary_rsqrt_def,
    Ideal.ofBits_def, Ideal.ofBits_zero_f32, zero_add]
  rfl

end Cert.ReferenceIdeal.RefValue

end
-- ==== Proof.RefValueSum.lean ====
/-
  Re-indexing a sum over the 32768 entries of a flattened [64, 512] matrix: entry `j` is row `j / 512`,
  column `j % 512`, and every (row, column) pair occurs exactly once, so the sum over `j` of a summand
  read at (j / 512, j % 512) is the double sum over rows and columns. Valid in any commutative additive monoid.
-/
import Mathlib

namespace Cert.RefValueSum

open scoped BigOperators

/-- The sum over the flattened index of a summand read at (row, column) = (j / 512, j % 512) is the double sum. -/
theorem sum_flat {M : Type*} [AddCommMonoid M] (g : Fin 64 → Fin 512 → M) :
    ∑ j : Fin 32768, g ⟨j.val / 512, by have := j.isLt; omega⟩ ⟨j.val % 512, Nat.mod_lt _ (by norm_num)⟩
      = ∑ k : Fin 64, ∑ d : Fin 512, g k d := by
  rw [← Fintype.sum_prod_type']
  exact Fintype.sum_equiv (finProdFinEquiv (m := 64) (n := 512)).symm _ (fun p => g p.1 p.2) (fun j => rfl)

end Cert.RefValueSum
-- ==== Proof.RefValueC.lean ====
/-
  The reference program read stage by stage, third part: the row-major flattening of each batch's [64, 512]
  matrix to 32768 entries, its squared length as a double sum over clusters and coordinates, the whole-matrix
  normalization, and the final contraction with the projection: the specification's `gss`, `flat` and `out`.
-/
import proofs.«181341_j65197603553867_2_alg».proof.Proof.RefValueB
import proofs.«181341_j65197603553867_2_alg».proof.Proof.RefValueSum

noncomputable section

namespace Cert.ReferenceIdeal.RefValue

open Cert.ReferenceIdeal Cert.ReferenceIdeal.Gen Cert.ReferenceIdeal.Read Idealize.ShloMosaic Idealize.ShloMosaic.ValueIdx

variable (x0 : (⟨S32x1024x512, .f32⟩ : BufTy).Contents (Elt Ideal)) (x1 : (⟨S512x64, .f32⟩ : BufTy).Contents (Elt Ideal))
  (x2 : (⟨S64, .f32⟩ : BufTy).Contents (Elt Ideal)) (x3 : (⟨S64x512, .f32⟩ : BufTy).Contents (Elt Ideal))
  (x4 : (⟨S32768x1024, .f32⟩ : BufTy).Contents (Elt Ideal))

/-- Row-major flattening: entry `j` of a batch's 32768 is row `j / 512`, column `j % 512` of its [64, 512] matrix. -/
theorem flat_idx (b : Fin 32) (j : Fin 32768) :
    idx_main_v31 (ix2 b j)
      = ix3 b ⟨j.val / 512, by have := j.isLt; omega⟩ ⟨j.val % 512, Nat.mod_lt _ (by norm_num)⟩ :=
  funext fun a => Fin.ext (by
    have hb := b.isLt
    have hj := j.isLt
    match a with
    | ⟨0, _⟩ => show (b.val * 32768 + j.val) / 32768 = b.val; omega
    | ⟨1, _⟩ => show (b.val * 32768 + j.val) / 512 % 64 = j.val / 512; omega
    | ⟨2, _⟩ => show (b.val * 32768 + j.val) % 512 = j.val % 512; omega)

/-- The flattened matrix of scaled residuals. -/
theorem reshaped_at (b : Fin 32) (j : Fin 32768) :
    val_main_v31 (F := Ideal) x0 x1 x2 x3 (ix2 b j)
      = Cert.Spec.unit1 (fun t d => x0 (ix3 b t d)) x1 x2 x3
          ⟨j.val / 512, by have := j.isLt; omega⟩ ⟨j.val % 512, Nat.mod_lt _ (by norm_num)⟩ := by
  rw [val_main_v31_apply, flat_idx, unit1_at]

/-- The squared length of the whole matrix: the sum over the 32768 flattened entries is the double sum over
    clusters and coordinates. -/
theorem gss_at (b : Fin 32) :
    val_main_v33 (F := Ideal) x0 x1 x2 x3 (ix1 b) = Cert.Spec.gss (fun t d => x0 (ix3 b t d)) x1 x2 x3 := by
  have e : ∀ j : Fin 32768, idx_main_v33 (ix1 b) j = ix2 b j := fun j => funext fun a => Fin.ext (by
    match a with | ⟨0, _⟩ => rfl | ⟨1, _⟩ => rfl)
  rw [val_main_v33_apply, val_main_cst_5_apply]
  simp only [e, val_main_v32_apply, reshaped_at, Ideal.mulf_def, Ideal.ofBits_def, Ideal.ofBits_zero_f32, zero_add]
  exact Cert.RefValueSum.sum_flat (fun k d => Cert.Spec.unit1 (fun t d => x0 (ix3 b t d)) x1 x2 x3 k d
    * Cert.Spec.unit1 (fun t d => x0 (ix3 b t d)) x1 x2 x3 k d)

/-- The flattened descriptor: the matrix scaled by the inverse root of its squared length, floored at ε. -/
theorem flat_at (b : Fin 32) (j : Fin 32768) :
    val_main_v39 (F := Ideal) x0 x1 x2 x3 (ix2 b j) = Cert.Spec.flat x0 x1 x2 x3 b j := by
  have e : idx_main_v34 (idx_main_v38 (ix2 b j)) = ix1 b := funext fun a => Fin.ext (by
    match a with | ⟨0, _⟩ => rfl)
  rw [val_main_v39_apply, val_main_v38_apply, val_main_v37_apply, val_main_v36_apply, val_main_v34_apply, e,
    val_main_v35_apply, val_main_cst_6_apply, reshaped_at, gss_at]
  simp only [Ideal.mulf_def, Ideal.maximumf_def, Ideal.hostUnary_rsqrt_def, Ideal.ofBits_def]
  rfl

/-- The result: the flattened descriptor contracted with the projection over the 32768 entries. -/
theorem out_at (b : Fin 32) (o : Fin 1024) :
    val_main_v40 (F := Ideal) x0 x1 x2 x3 x4 (ix2 b o) = Cert.Spec.out x0 x1 x2 x3 x4 b o := by
  have el : ∀ j : Fin 32768, lidx_main_v40 (ix2 b o) j = ix2 b j := fun j => funext fun a => Fin.ext (by
    match a with | ⟨0, _⟩ => rfl | ⟨1, _⟩ => rfl)
  have er : ∀ j : Fin 32768, ridx_main_v40 (ix2 b o) j = ix2 j o := fun j => funext fun a => Fin.ext (by
    match a with | ⟨0, _⟩ => rfl | ⟨1, _⟩ => rfl)
  rw [val_main_v40_apply]
  simp only [el, er, flat_at]
  rfl

end Cert.ReferenceIdeal.RefValue

end
-- ==== Proof.RefValue.lean ====
/-
  The reference program computes the specification: its result, read index by index, is the flattened,
  twice-normalized matrix of cluster residuals contracted with the projection. Every weakly fair execution of
  the reference terminates with its result array equal to that function of the argument arrays, and the argument
  arrays unchanged.
-/
import proofs.«181341_j65197603553867_2_alg».proof.Proof.RefValueC
import proofs.«181341_j65197603553867_2_alg».proof.Defs
import proofs.«181341_j65197603553867_2_alg».proof.Proof.Gen.Pre_finite_inputs

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- The program's last stage, as a function on the result's index set, is the specification's `out`. -/
theorem ref_eq (x0 : (⟨S32x1024x512, .f32⟩ : BufTy).Contents (Elt Ideal)) (x1 : (⟨S512x64, .f32⟩ : BufTy).Contents (Elt Ideal))
    (x2 : (⟨S64, .f32⟩ : BufTy).Contents (Elt Ideal)) (x3 : (⟨S64x512, .f32⟩ : BufTy).Contents (Elt Ideal))
    (x4 : (⟨S32768x1024, .f32⟩ : BufTy).Contents (Elt Ideal)) :
    val_main_v40 (F := Ideal) x0 x1 x2 x3 x4 = fun i => Cert.Spec.out x0 x1 x2 x3 x4 (i 0) (i 1) := by
  funext i
  obtain ⟨b, o, rfl⟩ : ∃ (b : Fin 32) (o : Fin 1024), i = ix2 b o := ⟨i 0, i 1, eq_ix2 i⟩
  exact out_at x0 x1 x2 x3 x4 b o

/-- Every weakly fair execution of the reference terminates with its result the specification's `out` of the
    argument arrays as the launch memory holds them, and the argument arrays unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v40)
          = (fun i => Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (i 0) (i 1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v40_eq m' c).trans (ref_eq _ _ _ _ _)), (h c).2⟩)
    (Cert.ReferenceIdeal.Value.run (F := Ideal) m' ρ')

/-- The reference runs to the end without a fault and leaves its argument arrays unchanged. -/
theorem ref_frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of the NetVLAD descriptor kernel against its plain reference.

  Both programs compute, for every batch, the soft assignment of 1024 descriptors to 64 clusters, the residuals of
  the assigned descriptors against the cluster centers, each residual scaled to unit length and the whole matrix
  scaled to unit length, and contract the flattened matrix with the projection. The kernel does it in two
  regions — four batches per grid point in the first; the projection's contraction axis cut into eight blocks
  accumulated in a scratch buffer in the second — and the reference in plain array operations. Read on the extended
  reals both results are one function of the argument arrays (`Cert.Spec.out`): the kernel's by what each region's
  write-backs leave in its output array, the reference's by reading its operations one at a time. The two differ only
  in how sums are grouped, so no finiteness of the inputs is used. The frames are the runs with the results dropped;
  the idealization rewrote nothing.
-/
import proofs.«181341_j65197603553867_2_alg».proof.Defs
import proofs.«181341_j65197603553867_2_alg».proof.Proof.Gen.Kernel
import proofs.«181341_j65197603553867_2_alg».proof.Proof.Gen.KernelIdeal
import proofs.«181341_j65197603553867_2_alg».proof.Proof.Gen.ReferenceIdeal
import proofs.«181341_j65197603553867_2_alg».proof.Proof.Gen.Pre_finite_inputs
import proofs.«181341_j65197603553867_2_alg».proof.Proof.KRun
import proofs.«181341_j65197603553867_2_alg».proof.Proof.KIRun
import proofs.«181341_j65197603553867_2_alg».proof.Proof.KIValue0
import proofs.«181341_j65197603553867_2_alg».proof.Proof.KIValue1
import proofs.«181341_j65197603553867_2_alg».proof.Proof.KIBridge
import proofs.«181341_j65197603553867_2_alg».proof.Proof.RefValue

noncomputable section

namespace Cert.Proof

open Idealize.ShloMosaic Idealize.SL.Sem

/-- The word-level kernel runs to the end and leaves its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The idealization rewrote no operation. -/
theorem preserves : Cert.preserves_Kernel_KernelIdeal := trivial

/-- From memories agreeing on the arguments both idealized programs end with the specification's result of those
    arguments. -/
theorem algebraic : Cert.algebraic_KernelIdeal_ReferenceIdeal := by
  intro m ρ m' ρ' _ hagree
  refine ⟨_, Cert.KernelIdeal.Hand.kernel_run_of m ρ (fun V c b k d => Cert.KernelIdeal.Hand.arr0_apply V c b k d)
    (fun V c b o => Cert.KernelIdeal.Hand.arr1_apply V c b o), ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefValue.ref_frame, preserves, algebraic⟩

end Cert.Proof

end
